-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S64 .f32) (main_arg6 : FVec F S64x40 .f32) (main_arg7 : FVec F S40 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x40 .f32 := Host.absf main_arg6
  let main_cst_8 : FVec F S_ .f32 := constant S_ .f32 0x7F800000#32
  let main_v25 : FVec F S64x40 .f32 := broadcastInDim S64x40 ![] bcast_S_S64x40 main_cst_8
  let main_v26 : IVec S64x40 1 := cmpf .olt main_v24 main_v25
  let main_c_9 : IVec S_ 1 := constantI S_ 1 1#1
  let main_v27 : IVec S_ 1 := (fun x v => Host.reduce IntOp.andi x v reducesTo_S64x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x64 .f32) (main_arg3 : FVec F S64 .f32) (main_arg4 : FVec F S64x64 .f32) (main_arg5 : FVec F S64 .f32) (main_arg6 : FVec F S64x40 .f32) (main_arg7 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S5000x128 : Shape := ⟨2, ![5000, 128]⟩
abbrev S5000x64 : Shape := ⟨2, ![5000, 64]⟩
abbrev S1700000x64 : Shape := ⟨2, ![1700000, 64]⟩
abbrev S1x64 : Shape := ⟨2, ![1, 64]⟩
abbrev S1x40 : Shape := ⟨2, ![1, 40]⟩
abbrev S100000x40 : Shape := ⟨2, ![100000, 40]⟩
abbrev S5000x40 : Shape := ⟨2, ![5000, 40]⟩
abbrev S5000 : Shape := ⟨1, ![5000]⟩
abbrev S5000x1 : Shape := ⟨2, ![5000, 1]⟩

abbrev nBuf : Space → Nat
  | .hbm => 113
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x40, .f32⟩
  | .hbm, ⟨7, _⟩ => ⟨S40, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S100000, .i32⟩
  | .hbm, ⟨13, _⟩ => ⟨S1700000, .i32⟩
  | .hbm, ⟨14, _⟩ => ⟨S1700000, .i32⟩
  | .hbm, ⟨15, _⟩ => ⟨S_, .f32⟩
  | .hbm, ⟨16, _⟩ => ⟨S100000, .f32⟩
  | .hbm, ⟨17, _⟩ => ⟨S_, .i32⟩
  | .hbm, ⟨18, _⟩ => ⟨S1700000, .i32⟩
  | .hbm, ⟨19, _⟩ => ⟨S1700000, .i1⟩
  | .hbm, ⟨20, _⟩ => ⟨S_, .i32⟩
  | .hbm, ⟨21, _⟩ => ⟨S1700000, .i32⟩
  | .hbm, ⟨22, _⟩ => ⟨S1700000, .i32⟩
  | .hbm, ⟨23, _⟩ => ⟨S1700000, .i32⟩
  | .hbm, ⟨24, _⟩ => ⟨S1700000x1, .i32⟩
  | .hbm, ⟨25, _⟩ => ⟨S_, .f32⟩
  | .hbm, ⟨26, _⟩ => ⟨S1700000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .i1⟩
  | .hbm, ⟨31, _⟩ => ⟨S100000, .f32⟩
  | .hbm, ⟨32, _⟩ => ⟨S_, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x64, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000, .f32⟩
  | .hbm, ⟨55, _⟩ => ⟨S1700000, .f32⟩
  | .hbm, ⟨56, _⟩ => ⟨S_, .i32⟩
  | .hbm, ⟨57, _⟩ => ⟨S1700000, .i32⟩
  | .hbm, ⟨58, _⟩ => ⟨S1700000, .i1⟩
  | .hbm, ⟨59, _⟩ => ⟨S_, .i32⟩
  | .hbm, ⟨60, _⟩ => ⟨S1700000, .i32⟩
  | .hbm, ⟨61, _⟩ => ⟨S1700000, .i32⟩
  | .hbm, ⟨62, _⟩ => ⟨S1700000, .i32⟩
  | .hbm, ⟨63, _⟩ => ⟨S1700000x1, .i32⟩
  | .hbm, ⟨64, _⟩ => ⟨S1700000x64, .f32⟩
  | .hbm, ⟨65, _⟩ => ⟨S1700000x1, .f32⟩
  | .hbm, ⟨66, _⟩ => ⟨S1700000x64, .f32⟩
  | .hbm, ⟨67, _⟩ => ⟨S1700000x64, .f32⟩
  | .hbm, ⟨68, _⟩ => ⟨S_, .f32⟩
  | .hbm, ⟨69, _⟩ => ⟨S100000x64, .f32⟩
  | .hbm, ⟨70, _⟩ => ⟨S1700000x1, .i32⟩
  | .hbm, ⟨71, _⟩ => ⟨S100000x64, .f32⟩
  | .hbm, ⟨72, _⟩ => ⟨S1x64, .f32⟩
  | .hbm, ⟨73, _⟩ => ⟨S100000x64, .f32⟩
  | .hbm, ⟨74, _⟩ => ⟨S100000x64, .f32⟩
  | .hbm, ⟨75, _⟩ => ⟨S_, .i32⟩
  | .hbm, ⟨76, _⟩ => ⟨S1700000, .i32⟩
  | .hbm, ⟨77, _⟩ => ⟨S1700000, .i1⟩
  | .hbm, ⟨78, _⟩ => ⟨S_, .i32⟩
  | .hbm, ⟨79, _⟩ => ⟨S1700000, .i32⟩
  | .hbm, ⟨80, _⟩ => ⟨S1700000, .i32⟩
  | .hbm, ⟨81, _⟩ => ⟨S1700000, .i32⟩
  | .hbm, ⟨82, _⟩ => ⟨S1700000x1, .i32⟩
  | .hbm, ⟨83, _⟩ => ⟨S1700000, .f32⟩
  | .hbm, ⟨84, _⟩ => ⟨S_, .i32⟩
  | .hbm, ⟨85, _⟩ => ⟨S1700000, .i32⟩
  | .hbm, ⟨86, _⟩ => ⟨S1700000, .i1⟩
  | .hbm, ⟨87, _⟩ => ⟨S_, .i32⟩
  | .hbm, ⟨88, _⟩ => ⟨S1700000, .i32⟩
  | .hbm, ⟨89, _⟩ => ⟨S1700000, .i32⟩
  | .hbm, ⟨90, _⟩ => ⟨S1700000, .i32⟩
  | .hbm, ⟨91, _⟩ => ⟨S1700000x1, .i32⟩
  | .hbm, ⟨92, _⟩ => ⟨S1700000, .f32⟩
  | .hbm, ⟨93, _⟩ => ⟨S1700000, .f32⟩
  | .hbm, ⟨94, _⟩ => ⟨S_, .i32⟩
  | .hbm, ⟨95, _⟩ => ⟨S1700000, .i32⟩
  | .hbm, ⟨96, _⟩ => ⟨S1700000, .i1⟩
  | .hbm, ⟨97, _⟩ => ⟨S_, .i32⟩
  | .hbm, ⟨98, _⟩ => ⟨S1700000, .i32⟩
  | .hbm, ⟨99, _⟩ => ⟨S1700000, .i32⟩
  | .hbm, ⟨100, _⟩ => ⟨S1700000, .i32⟩
  | .hbm, ⟨101, _⟩ => ⟨S1700000x1, .i32⟩
  | .hbm, ⟨102, _⟩ => ⟨S1700000x64, .f32⟩
  | .hbm, ⟨103, _⟩ => ⟨S1700000x1, .f32⟩
  | .hbm, ⟨104, _⟩ => ⟨S1700000x64, .f32⟩
  | .hbm, ⟨105, _⟩ => ⟨S1700000x64, .f32⟩
  | .hbm, ⟨106, _⟩ => ⟨S_, .f32⟩
  | .hbm, ⟨107, _⟩ => ⟨S100000x64, .f32⟩
  | .hbm, ⟨108, _⟩ => ⟨S1700000x1, .i32⟩
  | .hbm, ⟨109, _⟩ => ⟨S100000x64, .f32⟩
  | .hbm, ⟨110, _⟩ => ⟨S1x64, .f32⟩
  | .hbm, ⟨111, _⟩ => ⟨S1x40, .f32⟩
  | .hbm, ⟨112, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S64x40, .f32⟩
  | .local _ .vmem, ⟨19, _⟩ => ⟨S1x40, .f32⟩
  | .local _ .vmem, ⟨20, _⟩ => ⟨S5000x40, .f32⟩
  | .local _ .vmem, ⟨21, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_c_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v19 : Ref sig .tc := ⟨.hbm, 35, rfl⟩
abbrev main_v20 : Ref sig .tc := ⟨.hbm, 36, rfl⟩
abbrev main_c_4 : Ref sig .tc := ⟨.hbm, 37, rfl⟩
abbrev main_v21 : Ref sig .tc := ⟨.hbm, 38, rfl⟩
abbrev main_v22 : Ref sig .tc := ⟨.hbm, 39, rfl⟩
abbrev main_c_5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_6 : Ref sig .tc := ⟨.hbm, 46, rfl⟩
abbrev main_v28 : Ref sig .tc := ⟨.hbm, 47, rfl⟩
abbrev main_v29 : Ref sig .tc := ⟨.hbm, 48, rfl⟩
abbrev main_c_7 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_c_9 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_10 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c_11 : Ref sig .tc := ⟨.hbm, 75, rfl⟩
abbrev main_v52 : Ref sig .tc := ⟨.hbm, 76, rfl⟩
abbrev main_v53 : Ref sig .tc := ⟨.hbm, 77, rfl⟩
abbrev main_c_12 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_c_13 : Ref sig .tc := ⟨.hbm, 84, rfl⟩
abbrev main_v59 : Ref sig .tc := ⟨.hbm, 85, rfl⟩
abbrev main_v60 : Ref sig .tc := ⟨.hbm, 86, rfl⟩
abbrev main_c_14 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_c_15 : Ref sig .tc := ⟨.hbm, 94, rfl⟩
abbrev main_v67 : Ref sig .tc := ⟨.hbm, 95, rfl⟩
abbrev main_v68 : Ref sig .tc := ⟨.hbm, 96, rfl⟩
abbrev main_c_16 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_17 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg3_0 : Ref sig .tc := ⟨.vmem, 19, rfl⟩
abbrev cc3_stg4_0 : Ref sig .tc := ⟨.vmem, 20, rfl⟩
abbrev cc3_stg4_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem3_0 : DmaSem sig := 19
abbrev cc3_sem4_0 : DmaSem sig := 20
abbrev cc3_sem4_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64x40 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x40 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x40 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  shapeCasts_S40_S1x40 : S40.ShapeCasts S1x40
  inb_S64x40_S64x40_0_0 : ∀ a, (![0, 0] : Fin 2 → Nat) a + S64x40.size a ≤ S64x40.size a
  h_S64x40 : 0 < S64x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  scatter_S100000_S1700000x1_S1700000_n_0_0_1_wf : ScatterDims.WF S100000 S1700000x1 S1700000 [] [0] [0] 1
  dot_S5000x128_S128x64_S5000x64_1_0_0_1_n_n_wf : DotDims.WF S5000x128 S128x64 S5000x64 [1] [0] [0] [1] [] []
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x64_S5000x64_1_0_0_1_n_n_wf : DotDims.WF S5000x64 S64x64 S5000x64 [1] [0] [0] [1] [] []
  dot_S5000x64_S64x40_S5000x40_1_0_0_1_n_n_wf : DotDims.WF S5000x64 S64x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x40.size a ≤ S64x40.size a
  hwx3_2 : ∀ i : grid3.Coords, EltTy.bits .f32 = 32 ∨ (Rect.block (s := S64x40) S64x40.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x40.size a ≤ S1x40.size a
  hwx3_3 : ∀ i : grid3.Coords, EltTy.bits .f32 = 32 ∨ (Rect.block (s := S1x40) S1x40.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x40.size a ≤ S100000x40.size a
  hwx3_4 : ∀ i : grid3.Coords, EltTy.bits .f32 = 32 ∨ (Rect.block (s := S100000x40) S5000x40.size (cc3_transform_4 i) (hinb3_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v50) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v51) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v79) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v80) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg6) S64x40.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v81) S1x40.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v82) S5000x40.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S100000x64 : Shape := ⟨2, ![100000, 64]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x40 : Shape := ⟨2, ![100000, 40]⟩
abbrev S1x40 : Shape := ⟨2, ![1, 40]⟩
abbrev S100000x1 : Shape := ⟨2, ![100000, 1]⟩

abbrev nBuf : Space → Nat
  | .hbm => 164
  | .vmem => 0
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64x64, .f32⟩
  | 5 => ⟨S64, .f32⟩
  | 6 => ⟨S64x40, .f32⟩
  | 7 => ⟨S40, .f32⟩
  | 8 => ⟨S100000, .i32⟩
  | 9 => ⟨S1x1600000, .i32⟩
  | 10 => ⟨S1600000, .i32⟩
  | 11 => ⟨S1700000, .i32⟩
  | 12 => ⟨S1x1600000, .i32⟩
  | 13 => ⟨S1600000, .i32⟩
  | 14 => ⟨S1700000, .i32⟩
  | 15 => ⟨S100000x64, .f32⟩
  | 16 => ⟨S_, .f32⟩
  | 17 => ⟨S100000, .f32⟩
  | 18 => ⟨S_, .i32⟩
  | 19 => ⟨S1700000, .i32⟩
  | 20 => ⟨S1700000, .i1⟩
  | 21 => ⟨S_, .i32⟩
  | 22 => ⟨S1700000, .i32⟩
  | 23 => ⟨S1700000, .i32⟩
  | 24 => ⟨S1700000, .i32⟩
  | 25 => ⟨S1700000x1, .i32⟩
  | 26 => ⟨S_, .f32⟩
  | 27 => ⟨S1700000, .f32⟩
  | 28 => ⟨S100000, .f32⟩
  | 29 => ⟨S_, .f32⟩
  | 30 => ⟨S100000, .f32⟩
  | 31 => ⟨S100000, .i1⟩
  | 32 => ⟨S100000, .f32⟩
  | 33 => ⟨S_, .f32⟩
  | 34 => ⟨S_, .f32⟩
  | 35 => ⟨S100000, .f32⟩
  | 36 => ⟨S100000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S_, .i32⟩
  | 47 => ⟨S1700000, .i32⟩
  | 48 => ⟨S1700000, .i1⟩
  | 49 => ⟨S_, .i32⟩
  | 50 => ⟨S1700000, .i32⟩
  | 51 => ⟨S1700000, .i32⟩
  | 52 => ⟨S1700000, .i32⟩
  | 53 => ⟨S1700000x1, .i32⟩
  | 54 => ⟨S1700000, .f32⟩
  | 55 => ⟨S1700000, .f32⟩
  | 56 => ⟨S_, .i32⟩
  | 57 => ⟨S1700000, .i32⟩
  | 58 => ⟨S1700000, .i1⟩
  | 59 => ⟨S_, .i32⟩
  | 60 => ⟨S1700000, .i32⟩
  | 61 => ⟨S1700000, .i32⟩
  | 62 => ⟨S1700000, .i32⟩
  | 63 => ⟨S1700000x1, .i32⟩
  | 64 => ⟨S1700000x64, .f32⟩
  | 65 => ⟨S1700000x1, .f32⟩
  | 66 => ⟨S1700000x64, .f32⟩
  | 67 => ⟨S1700000x64, .f32⟩
  | 68 => ⟨S_, .f32⟩
  | 69 => ⟨S100000x64, .f32⟩
  | 70 => ⟨S1700000x1, .i32⟩
  | 71 => ⟨S100000x64, .f32⟩
  | 72 => ⟨S1x64, .f32⟩
  | 73 => ⟨S100000x64, .f32⟩
  | 74 => ⟨S100000x64, .f32⟩
  | 75 => ⟨S_, .f32⟩
  | 76 => ⟨S100000x64, .f32⟩
  | 77 => ⟨S100000x64, .f32⟩
  | 78 => ⟨S100000, .i32⟩
  | 79 => ⟨S1x1600000, .i32⟩
  | 80 => ⟨S1600000, .i32⟩
  | 81 => ⟨S1700000, .i32⟩
  | 82 => ⟨S1x1600000, .i32⟩
  | 83 => ⟨S1600000, .i32⟩
  | 84 => ⟨S1700000, .i32⟩
  | 85 => ⟨S100000x64, .f32⟩
  | 86 => ⟨S_, .f32⟩
  | 87 => ⟨S100000, .f32⟩
  | 88 => ⟨S_, .i32⟩
  | 89 => ⟨S1700000, .i32⟩
  | 90 => ⟨S1700000, .i1⟩
  | 91 => ⟨S_, .i32⟩
  | 92 => ⟨S1700000, .i32⟩
  | 93 => ⟨S1700000, .i32⟩
  | 94 => ⟨S1700000, .i32⟩
  | 95 => ⟨S1700000x1, .i32⟩
  | 96 => ⟨S_, .f32⟩
  | 97 => ⟨S1700000, .f32⟩
  | 98 => ⟨S100000, .f32⟩
  | 99 => ⟨S_, .f32⟩
  | 100 => ⟨S100000, .f32⟩
  | 101 => ⟨S100000, .i1⟩
  | 102 => ⟨S100000, .f32⟩
  | 103 => ⟨S_, .f32⟩
  | 104 => ⟨S_, .f32⟩
  | 105 => ⟨S100000, .f32⟩
  | 106 => ⟨S100000, .f32⟩
  | 107 => ⟨S_, .i32⟩
  | 108 => ⟨S1700000, .i32⟩
  | 109 => ⟨S1700000, .i1⟩
  | 110 => ⟨S_, .i32⟩
  | 111 => ⟨S1700000, .i32⟩
  | 112 => ⟨S1700000, .i32⟩
  | 113 => ⟨S1700000, .i32⟩
  | 114 => ⟨S1700000x1, .i32⟩
  | 115 => ⟨S1700000, .f32⟩
  | 116 => ⟨S_, .i32⟩
  | 117 => ⟨S1700000, .i32⟩
  | 118 => ⟨S1700000, .i1⟩
  | 119 => ⟨S_, .i32⟩
  | 120 => ⟨S1700000, .i32⟩
  | 121 => ⟨S1700000, .i32⟩
  | 122 => ⟨S1700000, .i32⟩
  | 123 => ⟨S1700000x1, .i32⟩
  | 124 => ⟨S1700000, .f32⟩
  | 125 => ⟨S1700000, .f32⟩
  | 126 => ⟨S_, .i32⟩
  | 127 => ⟨S1700000, .i32⟩
  | _ => ⟨S100000x128, .f32⟩

abbrev hbmTy0_1 (i : Nat) : BufTy := match i % 128 with
  | 0 => ⟨S1700000, .i1⟩
  | 1 => ⟨S_, .i32⟩
  | 2 => ⟨S1700000, .i32⟩
  | 3 => ⟨S1700000, .i32⟩
  | 4 => ⟨S1700000, .i32⟩
  | 5 => ⟨S1700000x1, .i32⟩
  | 6 => ⟨S1700000x64, .f32⟩
  | 7 => ⟨S1700000x1, .f32⟩
  | 8 => ⟨S1700000x64, .f32⟩
  | 9 => ⟨S1700000x64, .f32⟩
  | 10 => ⟨S_, .f32⟩
  | 11 => ⟨S100000x64, .f32⟩
  | 12 => ⟨S1700000x1, .i32⟩
  | 13 => ⟨S100000x64, .f32⟩
  | 14 => ⟨S1x64, .f32⟩
  | 15 => ⟨S100000x64, .f32⟩
  | 16 => ⟨S100000x64, .f32⟩
  | 17 => ⟨S100000x40, .f32⟩
  | 18 => ⟨S1x40, .f32⟩
  | 19 => ⟨S100000x40, .f32⟩
  | 20 => ⟨S100000x40, .f32⟩
  | 21 => ⟨S_, .f32⟩
  | 22 => ⟨S100000, .f32⟩
  | 23 => ⟨S_, .f32⟩
  | 24 => ⟨S100000, .f32⟩
  | 25 => ⟨S100000, .f32⟩
  | 26 => ⟨S100000x1, .f32⟩
  | 27 => ⟨S100000x40, .f32⟩
  | 28 => ⟨S100000x40, .f32⟩
  | 29 => ⟨S100000x40, .f32⟩
  | 30 => ⟨S_, .f32⟩
  | 31 => ⟨S100000, .f32⟩
  | 32 => ⟨S100000x1, .f32⟩
  | 33 => ⟨S100000x1, .f32⟩
  | 34 => ⟨S100000x40, .f32⟩
  | 35 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_c : Ref sig .tc := ⟨.hbm, 18, rfl⟩
abbrev main_v9 : Ref sig .tc := ⟨.hbm, 19, rfl⟩
abbrev main_v10 : Ref sig .tc := ⟨.hbm, 20, rfl⟩
abbrev main_c_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v20 : Ref sig .tc := ⟨.hbm, 36, rfl⟩
abbrev main_c_4 : Ref sig .tc := ⟨.hbm, 37, rfl⟩
abbrev main_v21 : Ref sig .tc := ⟨.hbm, 38, rfl⟩
abbrev main_v22 : Ref sig .tc := ⟨.hbm, 39, rfl⟩
abbrev main_c_5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_6 : Ref sig .tc := ⟨.hbm, 46, rfl⟩
abbrev main_v28 : Ref sig .tc := ⟨.hbm, 47, rfl⟩
abbrev main_v29 : Ref sig .tc := ⟨.hbm, 48, rfl⟩
abbrev main_c_7 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_c_9 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_10 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_call1_cst : Ref sig .tc := ⟨.hbm, 75, rfl⟩
abbrev main_call1_v0 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_11 : Ref sig .tc := ⟨.hbm, 86, rfl⟩
abbrev main_v61 : Ref sig .tc := ⟨.hbm, 87, rfl⟩
abbrev main_c_12 : Ref sig .tc := ⟨.hbm, 88, rfl⟩
abbrev main_v62 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_14 : Ref sig .tc := ⟨.hbm, 96, rfl⟩
abbrev main_v68 : Ref sig .tc := ⟨.hbm, 97, rfl⟩
abbrev main_v69 : Ref sig .tc := ⟨.hbm, 98, rfl⟩
abbrev main_cst_15 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_16 : Ref sig .tc := ⟨.hbm, 103, rfl⟩
abbrev main_call2_v0 : Ref sig .tc := ⟨.hbm, 104, rfl⟩
abbrev main_call2_v1 : Ref sig .tc := ⟨.hbm, 105, rfl⟩
abbrev main_v73 : Ref sig .tc := ⟨.hbm, 106, rfl⟩
abbrev main_c_17 : Ref sig .tc := ⟨.hbm, 107, rfl⟩
abbrev main_v74 : Ref sig .tc := ⟨.hbm, 108, rfl⟩
abbrev main_v75 : Ref sig .tc := ⟨.hbm, 109, rfl⟩
abbrev main_c_18 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_c_19 : Ref sig .tc := ⟨.hbm, 116, rfl⟩
abbrev main_v81 : Ref sig .tc := ⟨.hbm, 117, rfl⟩
abbrev main_v82 : Ref sig .tc := ⟨.hbm, 118, rfl⟩
abbrev main_c_20 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_c_21 : Ref sig .tc := ⟨.hbm, 126, rfl⟩
abbrev main_v89 : Ref sig .tc := ⟨.hbm, 127, rfl⟩
abbrev main_v90 : Ref sig .tc := ⟨.hbm, 128, rfl⟩
abbrev main_c_22 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_cst_23 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_call3_cst : Ref sig .tc := ⟨.hbm, 149, rfl⟩
abbrev main_call3_v0 : Ref sig .tc := ⟨.hbm, 150, rfl⟩
abbrev main_call3_cst_0 : Ref sig .tc := ⟨.hbm, 151, rfl⟩
abbrev main_call3_v1 : Ref sig .tc := ⟨.hbm, 152, rfl⟩
abbrev main_call3_v2 : Ref sig .tc := ⟨.hbm, 153, rfl⟩
abbrev main_call3_v3 : Ref sig .tc := ⟨.hbm, 154, rfl⟩
abbrev main_call3_v4 : Ref sig .tc := ⟨.hbm, 155, rfl⟩
abbrev main_call3_v5 : Ref sig .tc := ⟨.hbm, 156, rfl⟩
abbrev main_call3_v6 : Ref sig .tc := ⟨.hbm, 157, rfl⟩
abbrev main_call3_cst_1 : Ref sig .tc := ⟨.hbm, 158, rfl⟩
abbrev main_call3_v7 : Ref sig .tc := ⟨.hbm, 159, rfl⟩
abbrev main_call3_v8 : Ref sig .tc := ⟨.hbm, 160, rfl⟩
abbrev main_call3_v9 : Ref sig .tc := ⟨.hbm, 161, rfl⟩
abbrev main_call3_v10 : Ref sig .tc := ⟨.hbm, 162, rfl⟩
abbrev main_v109 : Ref sig .tc := ⟨.hbm, 163, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  dot_S100000x128_S128x64_S100000x64_1_0_0_1_n_n_wf : DotDims.WF S100000x128 S128x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  dot_S100000x64_S64x40_S100000x40_1_0_0_1_n_n_wf : DotDims.WF S100000x64 S64x40 S100000x40 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf

class Facts : Prop extends Facts₀ where

variable [Facts]
-- ==== Proof.KRun.lean ====
/-
  The kernel program's run with its result array named.

  The program's run is a chain of eight segments — stretches of host operations and the four kernel regions —
  and the contents of every TensorCore buffer at each segment boundary are a fold from the launch memory: a
  stretch applies its operations, a region rewrites its arrays with what its write-backs leave.  At the end every
  unscoped buffer holds the last boundary's contents.  Read at the arguments this says they end as launched; read
  at the result buffer it says the result array IS the last boundary's contents there, which the value proof then
  opens boundary by boundary.
-/
import proofs.«112777_j32212254720504_1_alg».proof.Proof.Gen.KernelIdeal.Frame

set_option maxRecDepth 16384

noncomputable section

namespace Cert.KernelIdeal.KValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the kernel program terminates, nothing faulting, with the result array at the last
    boundary's contents and the argument arrays as launched: the last thread state, every unscoped buffer at the
    last boundary's contents, read against the final memory. -/
theorem run_named : θ_run defs (onTc (τ := τ) (main (F := F))) ⟨m, fun _ => 0, ρ⟩ (fun r => ∀ c : Dev nD,
      r.2.mem ((c.tc : Thread nD τ).loc main_v82) = W8 m ρ c (Proc.devRef .tc main_v82)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v82 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.KValue

end
-- ==== Proof.LibAfterAssign.lean ====
import Idealize.ShloMosaic.Lib.StableHlo.Run

/-!
# Reading a long straight line of operations one operation at a time

`StableHlo.after ops V` is the contents of every buffer after the operations `ops`, in order, from the
contents `V`: each operation rewrites the buffers it writes and leaves the rest. Read back in one step,
the contents of the last result are the composed term of all the operations, in which a value with
several consumers is repeated once per consumer; for a long line that term is too large to compute.

This module reads the fold one operation at a time instead. Suppose the line is in SINGLE-ASSIGNMENT
form, stated by a list `ws` of references, one per operation: the `k`-th operation writes exactly the
`k`-th reference (`WritesAre ops ws`). Split the line at position `k`, into the `k` operations before and
the rest (`after_take_drop`). Then

* a reference that no operation from position `k` on writes holds, at the end, what it held after the
  first `k` operations (`after_take_at_unwritten`);
* if the result `y` of the `k`-th operation is written by no later operation, then at the end it holds
  what the `k`-th operation put there, computed from the contents after the first `k` operations
  (`after_at_written`).

Together: if moreover no operation from position `k` on writes an operand of the `k`-th operation, then
the final contents satisfy that operation's own equation — at its result, the fold holds the operation's
function of THE FOLD at its operands (`after_nullary`, `after_unary`, `after_binary`, `after_ternary`,
`after_reshape`, one per builder). The equations of a line can then be used in program order, each
rewriting the operands by the equations already obtained, and no composed term is ever formed.

For a literal line the hypotheses are computations: `WritesAre ops ws` is the conjunction of the
builders' `*_writes` facts (each `rfl`), `ops.drop k = op :: post` is `rfl`, and a reference's absence
from `ws.drop k` is decided.
-/

namespace Cert.Lib.AfterAssign

open Idealize.ShloMosaic Idealize.ShloMosaic.StableHlo

variable {τ : Topo} {sig : RefSig} {Val : EltTy → Type}

/-! ## The fold of a concatenation -/

/-- The contents after two lines run one after the other: the second line's fold over the first's. -/
theorem after_append (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- A line split at position `k`: the fold of the rest over the fold of the first `k` operations. -/
theorem after_take_drop (k : Nat) (ops : List (HloOp τ sig Val)) (V : Valuation τ sig Val) :
    after ops V = after (ops.drop k) (after (ops.take k) V) := by
  rw [← after_append, List.take_append_drop]

/-! ## Single assignment -/

/-- The `k`-th operation of the line writes exactly the `k`-th reference of the list (and the two have
    the same length). -/
def WritesAre : List (HloOp τ sig Val) → List (Ref sig .tc) → Prop
  | [], [] => True
  | op :: ops, w :: ws => op.writes = {Proc.devRef (τ := τ) .tc w} ∧ WritesAre ops ws
  | [], _ :: _ => False
  | _ :: _, [] => False

/-- The rest of a line from position `k` writes the rest of the list from position `k`. -/
theorem WritesAre.drop : ∀ (k : Nat) {ops : List (HloOp τ sig Val)} {ws : List (Ref sig .tc)},
    WritesAre ops ws → WritesAre (ops.drop k) (ws.drop k)
  | 0, _, _, h => h
  | _ + 1, [], [], h => h
  | k + 1, _ :: _, _ :: _, h => WritesAre.drop k h.2
  | _ + 1, [], _ :: _, h => h.elim
  | _ + 1, _ :: _, [], h => h.elim

/-- A reference that is not among the references a line writes keeps its contents. -/
theorem after_of_not_written : ∀ {ops : List (HloOp τ sig Val)} {ws : List (Ref sig .tc)},
    WritesAre ops ws → ∀ (V : Valuation τ sig Val) {r : Ref sig .tc}, r ∉ ws →
      after ops V (Proc.devRef .tc r) = V (Proc.devRef .tc r)
  | [], [], _, _, _, _ => rfl
  | op :: ops, w :: ws, h, V, r, hr => by
    rw [after_cons, after_of_not_written h.2 _ (fun hm => hr (List.mem_cons_of_mem _ hm))]
    refine HloOp.result_of_not_mem _ _ ?_
    rw [h.1, Finset.mem_singleton]
    refine devRef_ne_of_ne (fun e => hr ?_)
    rw [e]
    exact List.mem_cons_self
  | [], _ :: _, h, _, _, _ => h.elim
  | _ :: _, [], h, _, _, _ => h.elim

/-- A reference that no operation from position `k` on writes holds, after the whole line, what it held
    after the first `k` operations. -/
theorem after_take_at_unwritten {ops : List (HloOp τ sig Val)} {ws : List (Ref sig .tc)}
    (h : WritesAre ops ws) (k : Nat) (V : Valuation τ sig Val) {a : Ref sig .tc} (ha : a ∉ ws.drop k) :
    after (ops.take k) V (Proc.devRef .tc a) = after ops V (Proc.devRef .tc a) := by
  rw [after_take_drop k ops V]
  exact (after_of_not_written (WritesAre.drop k h) _ ha).symm

/-- If no operation after the `k`-th writes the reference `y`, the whole line leaves at `y` what the
    `k`-th operation leaves there, from the contents after the first `k` operations. -/
theorem after_at_written {ops : List (HloOp τ sig Val)} {ws : List (Ref sig .tc)}
    (h : WritesAre ops ws) (k : Nat) {op : HloOp τ sig Val} {post : List (HloOp τ sig Val)}
    (hk : ops.drop k = op :: post) (V : Valuation τ sig Val) {y : Ref sig .tc}
    (hy : y ∉ ws.drop (k + 1)) :
    after ops V (Proc.devRef .tc y) = op.result (after (ops.take k) V) (Proc.devRef .tc y) := by
  have hpost : WritesAre post (ws.drop (k + 1)) := by
    have h' := WritesAre.drop (k + 1) h
    rwa [← List.tail_drop (l := ops) (i := k), hk, List.tail_cons] at h'
  rw [after_take_drop k ops V, hk, after_cons]
  exact after_of_not_written hpost _ hy

/-! ## Each builder's equation, at the fold itself -/

/-- A constant: if no later operation writes its result, the whole line leaves the constant there. -/
theorem after_nullary {ops : List (HloOp τ sig Val)} {ws : List (Ref sig .tc)} (h : WritesAre ops ws)
    (k : Nat) {y : Ref sig .tc} {v : y.ty.Contents Val} {hy} {post : List (HloOp τ sig Val)}
    (hk : ops.drop k = nullary (τ := τ) y v hy :: post) (V : Valuation τ sig Val)
    (hyw : y ∉ ws.drop (k + 1)) :
    after ops V (Proc.devRef .tc y) = v := by
  rw [after_at_written h k hk V hyw, nullary_result]

/-- A one-operand operation: if no later operation writes its result and none from it on writes its
    operand, the whole line leaves at the result the operation's function of what the whole line leaves
    at the operand. -/
theorem after_unary {ops : List (HloOp τ sig Val)} {ws : List (Ref sig .tc)} (h : WritesAre ops ws)
    (k : Nat) {x y : Ref sig .tc} {f : x.ty.Contents Val → y.ty.Contents Val} {hx hy}
    {post : List (HloOp τ sig Val)}
    (hk : ops.drop k = unary (τ := τ) x y f hx hy :: post) (V : Valuation τ sig Val)
    (hyw : y ∉ ws.drop (k + 1)) (hxw : x ∉ ws.drop k) :
    after ops V (Proc.devRef .tc y) = f (after ops V (Proc.devRef .tc x)) := by
  rw [after_at_written h k hk V hyw, unary_result, after_take_at_unwritten h k V hxw]

/-- A two-operand operation: if no later operation writes its result and none from it on writes an
    operand, the whole line leaves at the result the operation's function of what the whole line leaves
    at the two operands. -/
theorem after_binary {ops : List (HloOp τ sig Val)} {ws : List (Ref sig .tc)} (h : WritesAre ops ws)
    (k : Nat) {a b y : Ref sig .tc} {f : a.ty.Contents Val → b.ty.Contents Val → y.ty.Contents Val}
    {ha hb hy} {post : List (HloOp τ sig Val)}
    (hk : ops.drop k = binary (τ := τ) a b y f ha hb hy :: post) (V : Valuation τ sig Val)
    (hyw : y ∉ ws.drop (k + 1)) (haw : a ∉ ws.drop k) (hbw : b ∉ ws.drop k) :
    after ops V (Proc.devRef .tc y)
      = f (after ops V (Proc.devRef .tc a)) (after ops V (Proc.devRef .tc b)) := by
  rw [after_at_written h k hk V hyw, binary_result, after_take_at_unwritten h k V haw,
    after_take_at_unwritten h k V hbw]

/-- A three-operand operation, likewise. -/
theorem after_ternary {ops : List (HloOp τ sig Val)} {ws : List (Ref sig .tc)} (h : WritesAre ops ws)
    (k : Nat) {c a b y : Ref sig .tc}
    {f : c.ty.Contents Val → a.ty.Contents Val → b.ty.Contents Val → y.ty.Contents Val}
    {hc ha hb hy} {post : List (HloOp τ sig Val)}
    (hk : ops.drop k = ternary (τ := τ) c a b y f hc ha hb hy :: post) (V : Valuation τ sig Val)
    (hyw : y ∉ ws.drop (k + 1)) (hcw : c ∉ ws.drop k) (haw : a ∉ ws.drop k) (hbw : b ∉ ws.drop k) :
    after ops V (Proc.devRef .tc y)
      = f (after ops V (Proc.devRef .tc c)) (after ops V (Proc.devRef .tc a))
          (after ops V (Proc.devRef .tc b)) := by
  rw [after_at_written h k hk V hyw, ternary_result, after_take_at_unwritten h k V hcw,
    after_take_at_unwritten h k V haw, after_take_at_unwritten h k V hbw]

/-- A reshape: if no later operation writes its result and none from it on writes its operand, the
    whole line leaves at the result the operand's final contents in row-major order at the result's
    shape. -/
theorem after_reshape {ops : List (HloOp τ sig Val)} {ws : List (Ref sig .tc)} (h : WritesAre ops ws)
    (k : Nat) {x y : Ref sig .tc} {he : x.ty.elt = y.ty.elt} {hn : x.ty.shape.ShapeCasts y.ty.shape}
    {hx hy} {post : List (HloOp τ sig Val)}
    (hk : ops.drop k = reshape (τ := τ) (Val := Val) x y he hn hx hy :: post) (V : Valuation τ sig Val)
    (hyw : y ∉ ws.drop (k + 1)) (hxw : x ∉ ws.drop k) :
    after ops V (Proc.devRef .tc y)
      = fun i => he ▸ shapeCast y.ty.shape (after ops V (Proc.devRef .tc x)) hn i := by
  rw [after_at_written h k hk V hyw, reshape_result, after_take_at_unwritten h k V hxw]

end Cert.Lib.AfterAssign
-- ==== Proof.RefFold.lean ====
/-
  The reference program's run, read stage by stage.

  The reference is one straight line of 156 host operations, and what its run leaves in every buffer is the fold of
  the operations' results over the launch contents.  Composed in one step, the last result's term repeats every
  value once per consumer and is too deep to compare with anything.  The line is therefore cut where the
  mathematics cuts it — the edge lists and the inverse root degrees; the first aggregation; the bias and the
  rectifier; the second layer's own edge lists and degrees; the second aggregation; the read-out and the
  log-softmax — and each piece is read by itself from the contents the pieces before it leave, which enter only
  through the few buffers the piece reads.  At those buffers the earlier pieces have already been identified with
  the stage functions of the arguments, so each piece's reading closes against its own stage function with the
  earlier ones still folded.
-/
import proofs.«112777_j32212254720504_1_alg».proof.Proof.RefRun
import proofs.«112777_j32212254720504_1_alg».proof.Proof.RefRead
import proofs.«112777_j32212254720504_1_alg».proof.Proof.LibAfterAssign

noncomputable section

namespace Cert.ReferenceIdeal.RefFold

open Cert.ReferenceIdeal Cert.ReferenceIdeal.ValueP Cert.ReferenceIdeal.ReadP
open Idealize.ShloMosaic Idealize.ShloMosaic.TcCoe Idealize.SL.Sem Idealize.ShloMosaic.StableHlo

variable {F : FTy → Type} [FloatOps F]

/-- The first `k + n` operations of a line: the `n` operations from position `k`, run from what the first `k` leave. -/
theorem after_take_add (l : List (HloOp τ sig (Elt F))) (k n : Nat) (V : Valuation τ sig (Elt F)) :
    after (l.take (k + n)) V = after ((l.drop k).take n) (after (l.take k) V) := by
  rw [List.take_add, Cert.Lib.AfterAssign.after_append]

variable (V : Valuation τ sig (Elt F))

/-- The rewriting form of the read-back, one operation and one buffer at a time: it finishes what the one-pass form
    leaves inside the list of typed pieces that a concatenation takes. -/
local macro "finish_results" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

/-! ## Operations 0 – 28: the edge lists, the first product, the inverse root degrees -/

set_option maxHeartbeats 4000000 in
/-- The source list: the edges' sources followed by every node. -/
theorem src_at : after ((ops (F := F)).take 29) V (Proc.devRef .tc main_v3) = val_main_v3 (F := F) (V (Proc.devRef .tc main_arg1)) := by
  simp only [ops, List.take_succ_cons, List.take_zero, List.drop_succ_cons, List.drop_zero]
  after_results_simp
  rfl

set_option maxHeartbeats 4000000 in
/-- The target list: the edges' targets followed by every node. -/
theorem dst_at : after ((ops (F := F)).take 29) V (Proc.devRef .tc main_v6) = val_main_v6 (F := F) (V (Proc.devRef .tc main_arg1)) := by
  simp only [ops, List.take_succ_cons, List.take_zero, List.drop_succ_cons, List.drop_zero]
  after_results_simp
  rfl

set_option maxHeartbeats 4000000 in
/-- The first product. -/
theorem prod1_at : after ((ops (F := F)).take 29) V (Proc.devRef .tc main_v7) = val_main_v7 (F := F) (V (Proc.devRef .tc main_arg0)) (V (Proc.devRef .tc main_arg2)) := by
  simp only [ops, List.take_succ_cons, List.take_zero, List.drop_succ_cons, List.drop_zero]
  after_results_simp
  rfl

set_option maxHeartbeats 4000000 in
/-- The inverse root degrees. -/
theorem dinv_at : after ((ops (F := F)).take 29) V (Proc.devRef .tc main_v20) = val_main_v20 (F := F) (V (Proc.devRef .tc main_arg1)) := by
  simp only [ops, List.take_succ_cons, List.take_zero, List.drop_succ_cons, List.drop_zero]
  after_results_simp
  rfl

/-! ## Operations 29 – 63: the first aggregation -/

set_option maxHeartbeats 8000000 in
/-- The first layer's aggregate. -/
theorem agg1_at : after ((ops (F := F)).take 64) V (Proc.devRef .tc main_v48) = val_main_v48 (F := F) (V (Proc.devRef .tc main_arg0)) (V (Proc.devRef .tc main_arg1)) (V (Proc.devRef .tc main_arg2)) := by
  have h3 := src_at V
  have h6 := dst_at V
  have h7 := prod1_at V
  have h20 := dinv_at V
  show after ((ops (F := F)).take (29 + 35)) V (Proc.devRef .tc main_v48) = _
  rw [after_take_add]
  generalize after ((ops (F := F)).take 29) V = W at h3 h6 h7 h20 ⊢
  simp only [ops, List.take_succ_cons, List.take_zero, List.drop_succ_cons, List.drop_zero]
  after_results_simp
  rw [h3, h6, h7, h20]
  rfl

/-! ## Operations 64 – 69: the bias and the rectifier -/

set_option maxHeartbeats 4000000 in
/-- The first layer's output. -/
theorem relu_at : after ((ops (F := F)).take 70) V (Proc.devRef .tc main_v52) = val_main_v52 (F := F) (V (Proc.devRef .tc main_arg0)) (V (Proc.devRef .tc main_arg1)) (V (Proc.devRef .tc main_arg2)) (V (Proc.devRef .tc main_arg3)) := by
  have h48 := agg1_at V
  have h3' : after ((ops (F := F)).take 64) V (Proc.devRef .tc main_arg3) = (V (Proc.devRef .tc main_arg3)) := by
    simp only [ops, List.take_succ_cons, List.take_zero, List.drop_succ_cons, List.drop_zero]
    after_results_simp
  show after ((ops (F := F)).take (64 + 6)) V (Proc.devRef .tc main_v52) = _
  rw [after_take_add]
  generalize after ((ops (F := F)).take 64) V = W at h48 h3' ⊢
  simp only [ops, List.take_succ_cons, List.take_zero, List.drop_succ_cons, List.drop_zero]
  after_results_simp
  rw [h48, h3']
  rfl

/-! ## Operations 70 – 98: the second layer's own edge lists, its product, its inverse root degrees -/

set_option maxHeartbeats 8000000 in
/-- The second layer's source list. -/
theorem src2_at : after ((ops (F := F)).take 99) V (Proc.devRef .tc main_v56) = val_main_v56 (F := F) (V (Proc.devRef .tc main_arg1)) := by
  have h1 : after ((ops (F := F)).take 70) V (Proc.devRef .tc main_arg1) = (V (Proc.devRef .tc main_arg1)) := by
    simp only [ops, List.take_succ_cons, List.take_zero, List.drop_succ_cons, List.drop_zero]
    after_results_simp
  show after ((ops (F := F)).take (70 + 29)) V (Proc.devRef .tc main_v56) = _
  rw [after_take_add]
  generalize after ((ops (F := F)).take 70) V = W at h1 ⊢
  simp only [ops, List.take_succ_cons, List.take_zero, List.drop_succ_cons, List.drop_zero]
  after_results_simp
  finish_results
  rw [h1]
  rfl

set_option maxHeartbeats 8000000 in
/-- The second layer's target list. -/
theorem dst2_at : after ((ops (F := F)).take 99) V (Proc.devRef .tc main_v59) = val_main_v59 (F := F) (V (Proc.devRef .tc main_arg1)) := by
  have h1 : after ((ops (F := F)).take 70) V (Proc.devRef .tc main_arg1) = (V (Proc.devRef .tc main_arg1)) := by
    simp only [ops, List.take_succ_cons, List.take_zero, List.drop_succ_cons, List.drop_zero]
    after_results_simp
  show after ((ops (F := F)).take (70 + 29)) V (Proc.devRef .tc main_v59) = _
  rw [after_take_add]
  generalize after ((ops (F := F)).take 70) V = W at h1 ⊢
  simp only [ops, List.take_succ_cons, List.take_zero, List.drop_succ_cons, List.drop_zero]
  after_results_simp
  finish_results
  rw [h1]
  rfl

set_option maxHeartbeats 8000000 in
/-- The second product. -/
theorem prod2_at : after ((ops (F := F)).take 99) V (Proc.devRef .tc main_v60)
    = val_main_v60 (F := F) (V (Proc.devRef .tc main_arg0)) (V (Proc.devRef .tc main_arg1)) (V (Proc.devRef .tc main_arg2)) (V (Proc.devRef .tc main_arg3)) (V (Proc.devRef .tc main_arg4)) := by
  have h52 := relu_at V
  have h4 : after ((ops (F := F)).take 70) V (Proc.devRef .tc main_arg4) = (V (Proc.devRef .tc main_arg4)) := by
    simp only [ops, List.take_succ_cons, List.take_zero, List.drop_succ_cons, List.drop_zero]
    after_results_simp
  show after ((ops (F := F)).take (70 + 29)) V (Proc.devRef .tc main_v60) = _
  rw [after_take_add]
  generalize after ((ops (F := F)).take 70) V = W at h52 h4 ⊢
  simp only [ops, List.take_succ_cons, List.take_zero, List.drop_succ_cons, List.drop_zero]
  after_results_simp
  rw [h52, h4]
  rfl

set_option maxHeartbeats 8000000 in
/-- The second layer's inverse root degrees. -/
theorem dinv2_at : after ((ops (F := F)).take 99) V (Proc.devRef .tc main_v73) = val_main_v73 (F := F) (V (Proc.devRef .tc main_arg1)) := by
  have h1 : after ((ops (F := F)).take 70) V (Proc.devRef .tc main_arg1) = (V (Proc.devRef .tc main_arg1)) := by
    simp only [ops, List.take_succ_cons, List.take_zero, List.drop_succ_cons, List.drop_zero]
    after_results_simp
  show after ((ops (F := F)).take (70 + 29)) V (Proc.devRef .tc main_v73) = _
  rw [after_take_add]
  generalize after ((ops (F := F)).take 70) V = W at h1 ⊢
  simp only [ops, List.take_succ_cons, List.take_zero, List.drop_succ_cons, List.drop_zero]
  after_results_simp
  finish_results
  rw [h1]
  rfl

/-! ## Operations 99 – 133: the second aggregation -/

set_option maxHeartbeats 8000000 in
/-- The second layer's aggregate. -/
theorem agg2_at : after ((ops (F := F)).take 134) V (Proc.devRef .tc main_v101)
    = val_main_v101 (F := F) (V (Proc.devRef .tc main_arg0)) (V (Proc.devRef .tc main_arg1)) (V (Proc.devRef .tc main_arg2)) (V (Proc.devRef .tc main_arg3)) (V (Proc.devRef .tc main_arg4)) := by
  have h56 := src2_at V
  have h59 := dst2_at V
  have h60 := prod2_at V
  have h73 := dinv2_at V
  show after ((ops (F := F)).take (99 + 35)) V (Proc.devRef .tc main_v101) = _
  rw [after_take_add]
  generalize after ((ops (F := F)).take 99) V = W at h56 h59 h60 h73 ⊢
  simp only [ops, List.take_succ_cons, List.take_zero, List.drop_succ_cons, List.drop_zero]
  after_results_simp
  rw [h56, h59, h60, h73]
  rfl

/-! ## Operations 134 – 140: the read-out -/

set_option maxHeartbeats 8000000 in
/-- The logits. -/
theorem logits_at : after ((ops (F := F)).take 141) V (Proc.devRef .tc main_v108)
    = val_main_v108 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  have h101 := agg2_at V
  have h5 : after ((ops (F := F)).take 134) V (Proc.devRef .tc main_arg5) = (V (Proc.devRef .tc main_arg5)) := by
    simp only [ops, List.take_succ_cons, List.take_zero, List.drop_succ_cons, List.drop_zero]
    after_results_simp
  have h6 : after ((ops (F := F)).take 134) V (Proc.devRef .tc main_arg6) = (V (Proc.devRef .tc main_arg6)) := by
    simp only [ops, List.take_succ_cons, List.take_zero, List.drop_succ_cons, List.drop_zero]
    after_results_simp
  have h7 : after ((ops (F := F)).take 134) V (Proc.devRef .tc main_arg7) = (V (Proc.devRef .tc main_arg7)) := by
    simp only [ops, List.take_succ_cons, List.take_zero, List.drop_succ_cons, List.drop_zero]
    after_results_simp
  show after ((ops (F := F)).take (134 + 7)) V (Proc.devRef .tc main_v108) = _
  rw [after_take_add]
  generalize after ((ops (F := F)).take 134) V = W at h101 h5 h6 h7 ⊢
  simp only [ops, List.take_succ_cons, List.take_zero, List.drop_succ_cons, List.drop_zero]
  after_results_simp
  rw [h101, h5, h6, h7]
  rfl

end Cert.ReferenceIdeal.RefFold

end
-- ==== Proof.LibTypedRef.lean ====
import Idealize.ShloMosaic.Lib.StableHlo

/-!
# A typed reference's two transports cancel

A typed reference `x : TRef sig T` carries contents of the value type `T` to its buffer's own type (`toBuf`) and
back (`ofBuf`), along the equation between the two types. Going there and back is the identity, whatever proof of
the equation the reference holds. A fold through a line of operations on typed references leaves one such pair
around every intermediate value; rewriting with this lemma removes them, so that the remaining term can be compared
with a plain one without unfolding any transport.
-/

namespace Cert.Lib.TypedRef

open Idealize.ShloMosaic Idealize.ShloMosaic.StableHlo

/-- Contents carried to a typed reference's buffer and back are the contents. -/
theorem ofBuf_toBuf {Val : EltTy → Type} {sig : RefSig} {T : BufTy} (x : TRef sig T) (v : T.Contents Val) :
    x.ofBuf (x.toBuf v) = v := by
  obtain ⟨r, rfl, _, _⟩ := x; rfl

end Cert.Lib.TypedRef
-- ==== Proof.RefResult.lean ====
/-
  The reference program's result: the log-softmax of the logits, read off the run's last fifteen operations.

  The reference's outlined log-softmax is run on typed references: every intermediate value is carried to its
  buffer's own type and back.  Going there and back is the identity, so those pairs are removed first; what remains
  is the max-shifted log-softmax applied to the logits, which the earlier stages have already identified with
  their stage function of the arguments.
-/
import proofs.«112777_j32212254720504_1_alg».proof.Proof.RefFold
import proofs.«112777_j32212254720504_1_alg».proof.Proof.LibTypedRef

noncomputable section

namespace Cert.ReferenceIdeal.RefFold

open Cert.ReferenceIdeal Cert.ReferenceIdeal.ValueP Cert.ReferenceIdeal.ReadP
open Idealize.ShloMosaic Idealize.ShloMosaic.TcCoe Idealize.SL.Sem Idealize.ShloMosaic.StableHlo

variable {F : FTy → Type} [FloatOps F] (V : Valuation τ sig (Elt F))

/-! ## Operations 141 – 155: the log-softmax of the logits -/

set_option maxHeartbeats 8000000 in
/-- THE RESULT: what the whole line leaves in the result buffer is the last stage function of the arguments. -/
theorem result_at : after (ops (F := F)) V (Proc.devRef .tc main_v109) = val_main_v109 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  have h108 := logits_at V
  rw [Cert.Lib.AfterAssign.after_take_drop 141 (ops (F := F)) V]
  generalize after ((ops (F := F)).take 141) V = W at h108 ⊢
  simp only [ops, List.take_succ_cons, List.take_zero, List.drop_succ_cons, List.drop_zero]
  after_results_simp
  rw [h108]
  simp only [Cert.Lib.TypedRef.ofBuf_toBuf]
  rfl

/-- The same at the launch contents of a memory: the form the run's statement has. -/
theorem result_eq (m : (ℓ : Loc nD τ sig) → Buf (Elt F) ℓ) (c : Dev nD) :
    after (ops (F := F)) (launchContents m c) (Proc.devRef .tc main_v109)
      = val_main_v109 (F := F) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) :=
  result_at (launchContents m c)

end Cert.ReferenceIdeal.RefFold

end
-- ==== Proof.Chain.lean ====
/-
  One graph-convolution aggregation as a single function of the node features.

  Given the edge list, a layer gathers each edge's source row of the features, scales it by the edge's
  symmetric normalisation weight, and sums the scaled rows into the edge's target node.  The index
  arithmetic (wrapping negative node numbers), the degree count and the weights depend on the edge list only;
  the features enter at one place, the gather.  Both layers of both programs apply this same function, so it
  is named here once and is never opened: what is proved about it is only that equal features give equal
  aggregates.
-/
import proofs.«112777_j32212254720504_1_alg».proof.Proof.RefRead

noncomputable section

namespace Cert.Gcn

open Cert.ReferenceIdeal Cert.ReferenceIdeal.ReadP Idealize.ShloMosaic

variable {F : FTy → Type} [FloatOps F]

/-- The aggregation of the features `h` over the edge list `e`: rows of `h` gathered at the wrapped source
    column, times the broadcast edge weights, scatter-added from zero at the target column. -/
def aggregate (e : (⟨S2x1600000, .i32⟩ : BufTy).Contents (Elt F)) (h : (⟨S100000x64, .f32⟩ : BufTy).Contents (Elt F)) :
    (⟨S100000x64, .f32⟩ : BufTy).Contents (Elt F) :=
  Host.scatterAdd scatter_S100000x64_S1700000x1_S1700000x64_1_0_0_1 (val_main_v46 (F := F)) (val_main_v47 (F := F) e)
    (mulf (Host.gather gather_S100000x64_S1700000x1_S1700000x64_1_0_n_n_0_1_164 h (val_main_v41 (F := F) e)) (val_main_v44 (F := F) e))

/-- The first layer's aggregate in the reference is this function of the first product. -/
theorem ref_layer1 (x0 : (⟨S100000x128, .f32⟩ : BufTy).Contents (Elt F)) (x1 : (⟨S2x1600000, .i32⟩ : BufTy).Contents (Elt F))
    (x2 : (⟨S128x64, .f32⟩ : BufTy).Contents (Elt F)) :
    val_main_v48 (F := F) x0 x1 x2 = aggregate x1 (val_main_v7 (F := F) x0 x2) := rfl

end Cert.Gcn

end
-- ==== Proof.Spec.lean ====
/-
  The row mathematics of the network's last stage, on the extended reals.

  A row of read-out logits `z` is turned into log-probabilities in the max-shifted form: with
  `s q = z q - sup z`, entry `q` is `s q - log (∑ q', exp (s q'))`.  Both programs compute exactly this
  expression, so it is stated once here and neither side's exponentials or logarithm are ever opened.
-/
import Idealize.ShloMosaic.PureOps.Ideal
import Idealize.ShloMosaic.Lib.ValueIdx

open scoped BigOperators

noncomputable section

namespace Cert.GcnSpec

open Idealize.ShloMosaic

/-- The log-softmax of a row in the max-shifted form. -/
def logSoftmaxRow {n : ℕ} (z : Fin n → EReal) (q : Fin n) : EReal :=
  (z q - Finset.univ.sup z) - Ideal.log (∑ q' : Fin n, Ideal.exp (z q' - Finset.univ.sup z))

end Cert.GcnSpec

end
-- ==== Proof.LibRowReduce.lean ====
/-
  Reductions of a matrix of extended reals along its rows.  For `x` of shape [A, B], a reduction over axis 1 read at
  row `a` runs over the row's entries `x (a, b)`, `b < B`: a maximum started from minus infinity is the supremum of
  the row, a sum started from zero is the row's sum; the host's reductions start from a scalar initial value instead,
  and give the maximum of that value and the row's supremum, and that value plus the row's sum.  The order in which
  the entries are folded does not matter, since `max` and `+` on the extended reals commute and associate.
-/
import Idealize.ShloMosaic.PureOps.Ideal
import Idealize.ShloMosaic.PureOps.Ideal.Laws
import Idealize.ShloMosaic.PureOps.Reduce
import Idealize.ShloMosaic.Lib.ValueIdx

noncomputable section

open scoped BigOperators

namespace Cert.LibRowReduce

open Idealize.ShloMosaic Idealize.ShloMosaic.ValueIdx

/-- The index of the matrix over row `a` of the reduced vector, with column `b` inserted on the reduced axis,
    is `(a, b)`. -/
theorem lift_ix1 {A B : Nat} (h : (⟨2, ![A, B]⟩ : Shape).Reduces [1] ⟨1, ![A]⟩) (a : Fin A) (b : Fin B) :
    h.lift (ix1 a) b = ix2 a b := by
  funext c
  match c with
  | ⟨0, _⟩ => rfl
  | ⟨1, _⟩ => rfl

/-- A fold of `max` from `c` over finitely many extended reals is the maximum of `c` and their supremum. -/
theorem fold_max_eq_max_sup {ι : Type*} (s : Finset ι) (f : ι → EReal) (c : EReal) :
    s.fold max c f = max c (s.sup f) := by
  classical
  induction s using Finset.induction_on with
  | empty => rw [Finset.fold_empty, Finset.sup_empty, max_bot_right]
  | insert i s hi ih => rw [Finset.fold_insert hi, ih, Finset.sup_insert]; exact max_left_comm _ _ _

/-- The single-precision word of minus infinity denotes the bottom of the extended reals. -/
theorem ofBits_neg_inf_f32 : Ideal.ofBits .f32 0xFF800000#32 = ⊥ := by
  simp [Ideal.ofBits, Ideal.ieee]

/-- A host's reduction fact into a vector is also a kernel's (the vector has an axis). -/
theorem reduces_of_reducesTo {A B : Nat} (h' : (⟨2, ![A, B]⟩ : Shape).ReducesTo [1] ⟨1, ![A]⟩) :
    (⟨2, ![A, B]⟩ : Shape).Reduces [1] ⟨1, ![A]⟩ := by
  obtain ⟨h1, h2⟩ := h'
  exact ⟨h1, Nat.one_pos, h2⟩

/-- (1) The kernel's row maximum: a `maximumf` reduction along axis 1 from minus infinity, read at row `a`, is the
    supremum of that row. -/
theorem multiReduction_maximumf_row {A B : Nat} (x : FVec Ideal ⟨2, ![A, B]⟩ .f32)
    (h : (⟨2, ![A, B]⟩ : Shape).Reduces [1] ⟨1, ![A]⟩) (hφ : FKind.Formats .f32)
    (hacc : (0xFF800000#32 : BitVec 32) = 0xFF800000#32) (a : Fin A) :
    multiReduction .maximumf [1] ⟨1, ![A]⟩ x 0xFF800000#32 h hφ hacc (ix1 a)
      = Finset.univ.sup fun b : Fin B => x (ix2 a b) := by
  refine (Ideal.multiReduction_maximumf_single x _ h hφ hacc (ix1 a)).trans ?_
  refine (fold_max_eq_max_sup _ _ _).trans ?_
  rw [show FloatOps.ofBits (F := Ideal) .f32 0xFF800000#32 = (⊥ : EReal) from ofBits_neg_inf_f32, max_bot_left]
  exact congrArg (Finset.univ.sup) (funext fun b : Fin B => congrArg x (lift_ix1 h a b))

/-- (2) The kernel's row sum: an `add` reduction along axis 1, read at row `a`, is the sum of that row. -/
theorem multiReduction_add_row {A B : Nat} (x : FVec Ideal ⟨2, ![A, B]⟩ .f32)
    (h : (⟨2, ![A, B]⟩ : Shape).Reduces [1] ⟨1, ![A]⟩) (hφ : FKind.Formats .f32)
    (hacc : (0x00000000#32 : BitVec 32) = 0x00000000#32) (a : Fin A) :
    multiReduction .add [1] ⟨1, ![A]⟩ x 0x00000000#32 h hφ hacc (ix1 a) = ∑ b : Fin B, x (ix2 a b) := by
  refine (Ideal.multiReduction_add_single x _ h hφ hacc (ix1 a)).trans ?_
  exact Finset.sum_congr rfl fun b _ => congrArg x (lift_ix1 h a b)

/-- (3) The host's row maximum: a one-operand reduction by `maximumf` along axis 1 from the scalar `v`, read at row
    `a`, is the maximum of `v` and the supremum of that row. -/
theorem hostReduce_maximumf_row {A B : Nat} (x : (⟨2, ![A, B]⟩ : Shape).Idx → EReal)
    (v : (⟨0, ![]⟩ : Shape).Idx → EReal) (h' : (⟨2, ![A, B]⟩ : Shape).ReducesTo [1] ⟨1, ![A]⟩)
    (hu : 0 < (⟨0, ![]⟩ : Shape).numel) (a : Fin A) :
    Host.reduce (FloatOps.maximumf (F := Ideal) (φ := .f32)) x v h' hu (ix1 a)
      = max (v ix0) (Finset.univ.sup fun b : Fin B => x (ix2 a b)) := by
  have h := reduces_of_reducesTo h'
  refine (Host.reduce_eq_fold_single (FloatOps.maximumf (F := Ideal) (φ := .f32)) x v h' h hu (ix1 a)).trans ?_
  refine (fold_max_eq_max_sup _ _ _).trans ?_
  rw [eq_ix0 (Shape.Idx.first hu)]
  exact congrArg (fun f => max (v ix0) (Finset.univ.sup f)) (funext fun b : Fin B => congrArg x (lift_ix1 h a b))

/-- (4) The host's row sum: a one-operand reduction by addition along axis 1 from the scalar `v`, read at row `a`,
    is `v` plus the sum of that row. -/
theorem hostReduceAdd_row {A B : Nat} (x : FVec Ideal ⟨2, ![A, B]⟩ .f32)
    (v : (⟨0, ![]⟩ : Shape).Idx → EReal) (h' : (⟨2, ![A, B]⟩ : Shape).ReducesTo [1] ⟨1, ![A]⟩)
    (hu : 0 < (⟨0, ![]⟩ : Shape).numel) (a : Fin A) :
    Host.reduceAdd (F := Ideal) (φ := .f32) x v h' hu (ix1 a) = v ix0 + ∑ b : Fin B, x (ix2 a b) := by
  have h := reduces_of_reducesTo h'
  refine (Ideal.hostReduceAdd_single h' h x (v (Shape.Idx.first hu)) (ix1 a)).trans ?_
  rw [eq_ix0 (Shape.Idx.first hu)]
  exact congrArg (fun r => v ix0 + r) (Finset.sum_congr rfl fun b _ => congrArg x (lift_ix1 h a b))

end Cert.LibRowReduce

end
-- ==== Proof.RefStages.lean ====
/-
  The reference program's stages read at an index.

  The reference computes, from the node features x, the edge list and the weights:
  h = x·W1; a1 = aggregate(h); r = max(a1 + b1, 0); h2 = r·W2; a2 = aggregate(h2);
  logits = (a2 + b2)·Wl + bl; and the row-wise log-softmax of the logits.
  Each dense stage is read here at an entry (p, q) as the expression in the entries of its operands; the two
  aggregations stay folded, and the second one is shown to be the same function of its features as the first.
-/
import proofs.«112777_j32212254720504_1_alg».proof.Proof.Chain
import proofs.«112777_j32212254720504_1_alg».proof.Proof.Spec
import proofs.«112777_j32212254720504_1_alg».proof.Proof.LibRowReduce

open scoped BigOperators

noncomputable section

namespace Cert.ReferenceIdeal.RefStages

open Cert.ReferenceIdeal Cert.ReferenceIdeal.ReadP Idealize.ShloMosaic Idealize.ShloMosaic.ValueIdx

/-! ## The first product -/

theorem lidx_v7 (p : Fin 100000) (q : Fin 64) (k : Fin 128) : lidx_main_v7 (ix2 p q) k = ix2 p k :=
  funext fun a => Fin.ext (by match a with | ⟨0, _⟩ => rfl | ⟨1, _⟩ => rfl)
theorem ridx_v7 (p : Fin 100000) (q : Fin 64) (k : Fin 128) : ridx_main_v7 (ix2 p q) k = ix2 k q :=
  funext fun a => Fin.ext (by match a with | ⟨0, _⟩ => rfl | ⟨1, _⟩ => rfl)

theorem ref_mm1 (x0 : (⟨S100000x128, .f32⟩ : BufTy).Contents (Elt Ideal)) (x2 : (⟨S128x64, .f32⟩ : BufTy).Contents (Elt Ideal))
    (p : Fin 100000) (q : Fin 64) :
    val_main_v7 (F := Ideal) x0 x2 (ix2 p q) = ∑ k : Fin 128, x0 (ix2 p k) * x2 (ix2 k q) := by
  rw [val_main_v7_apply]
  simp only [lidx_v7, ridx_v7]

/-! ## The first layer's bias and rectification -/

theorem idx_v50 (p : Fin 100000) (q : Fin 64) : idx_main_v49 (idx_main_v50 (ix2 p q)) = ix1 q :=
  funext fun a => Fin.ext (by match a with | ⟨0, _⟩ => rfl)

theorem ref_relu (x0 : (⟨S100000x128, .f32⟩ : BufTy).Contents (Elt Ideal)) (x1 : (⟨S2x1600000, .i32⟩ : BufTy).Contents (Elt Ideal))
    (x2 : (⟨S128x64, .f32⟩ : BufTy).Contents (Elt Ideal)) (x3 : (⟨S64, .f32⟩ : BufTy).Contents (Elt Ideal))
    (p : Fin 100000) (q : Fin 64) :
    val_main_v52 (F := Ideal) x0 x1 x2 x3 (ix2 p q)
      = max (val_main_v48 (F := Ideal) x0 x1 x2 (ix2 p q) + x3 (ix1 q)) (Ideal.ofBits .f32 0x00000000#32) := by
  rw [val_main_v52_apply, val_main_v51_apply, val_main_v50_apply, val_main_v49_apply, val_main_call1_v0_apply,
    val_main_call1_cst_apply]
  simp only [idx_v50, Ideal.addf_def, Ideal.maximumf_def, Ideal.ofBits_def]

/-! ## The second product -/

theorem lidx_v60 (p : Fin 100000) (q : Fin 64) (k : Fin 64) : lidx_main_v60 (ix2 p q) k = ix2 p k :=
  funext fun a => Fin.ext (by match a with | ⟨0, _⟩ => rfl | ⟨1, _⟩ => rfl)
theorem ridx_v60 (p : Fin 100000) (q : Fin 64) (k : Fin 64) : ridx_main_v60 (ix2 p q) k = ix2 k q :=
  funext fun a => Fin.ext (by match a with | ⟨0, _⟩ => rfl | ⟨1, _⟩ => rfl)

theorem ref_mm2 (x0 : (⟨S100000x128, .f32⟩ : BufTy).Contents (Elt Ideal)) (x1 : (⟨S2x1600000, .i32⟩ : BufTy).Contents (Elt Ideal))
    (x2 : (⟨S128x64, .f32⟩ : BufTy).Contents (Elt Ideal)) (x3 : (⟨S64, .f32⟩ : BufTy).Contents (Elt Ideal))
    (x4 : (⟨S64x64, .f32⟩ : BufTy).Contents (Elt Ideal)) (p : Fin 100000) (q : Fin 64) :
    val_main_v60 (F := Ideal) x0 x1 x2 x3 x4 (ix2 p q)
      = ∑ k : Fin 64, val_main_v52 (F := Ideal) x0 x1 x2 x3 (ix2 p k) * x4 (ix2 k q) := by
  rw [val_main_v60_apply]
  simp only [lidx_v60, ridx_v60]

/-! ## The second layer's aggregate

The reference computes the edge lists, the degrees and the edge weights a second time, in fresh buffers, by the
same operations of the edge list.  Stage by stage the recomputed value is the first layer's. -/

section Layer2
variable {F : FTy → Type} [FloatOps F]

/-- The recomputed source column (with the self loops appended) is the first layer's. -/
theorem src_eq (x1 : (⟨S2x1600000, .i32⟩ : BufTy).Contents (Elt F)) : val_main_v56 (F := F) x1 = val_main_v3 (F := F) x1 := rfl
/-- The recomputed target column (with the self loops appended) is the first layer's. -/
theorem dst_eq (x1 : (⟨S2x1600000, .i32⟩ : BufTy).Contents (Elt F)) : val_main_v59 (F := F) x1 = val_main_v6 (F := F) x1 := rfl
/-- The recomputed inverse square roots of the degrees are the first layer's. -/
theorem dinv_eq (x1 : (⟨S2x1600000, .i32⟩ : BufTy).Contents (Elt F)) : val_main_v73 (F := F) x1 = val_main_v20 (F := F) x1 := rfl
/-- The recomputed edge weights are the first layer's. -/
theorem weight_eq (x1 : (⟨S2x1600000, .i32⟩ : BufTy).Contents (Elt F)) : val_main_v88 (F := F) x1 = val_main_v35 (F := F) x1 := by
  unfold val_main_v88 val_main_v35 val_main_v80 val_main_v27 val_main_v87 val_main_v34
  rw [dinv_eq]
  rfl
/-- The zero the second scatter starts from is the first layer's. -/
theorem zero_eq : val_main_v99 (F := F) = val_main_v46 (F := F) := rfl
/-- The second scatter's target indices are the first layer's. -/
theorem dstIdx_eq (x1 : (⟨S2x1600000, .i32⟩ : BufTy).Contents (Elt F)) : val_main_v100 (F := F) x1 = val_main_v47 (F := F) x1 := by
  unfold val_main_v100 val_main_v47
  rw [dst_eq]
/-- The second gather's wrapped source indices are the first layer's. -/
theorem srcIdx_eq (x1 : (⟨S2x1600000, .i32⟩ : BufTy).Contents (Elt F)) : val_main_v94 (F := F) x1 = val_main_v41 (F := F) x1 := rfl
/-- The second layer's broadcast edge weights are the first layer's. -/
theorem weightB_eq (x1 : (⟨S2x1600000, .i32⟩ : BufTy).Contents (Elt F)) : val_main_v97 (F := F) x1 = val_main_v44 (F := F) x1 := by
  unfold val_main_v97 val_main_v44 val_main_v96 val_main_v43
  rw [weight_eq]

/-- The second layer's aggregate in the reference is the aggregation of the second product. -/
theorem ref_layer2 (x0 : (⟨S100000x128, .f32⟩ : BufTy).Contents (Elt F)) (x1 : (⟨S2x1600000, .i32⟩ : BufTy).Contents (Elt F))
    (x2 : (⟨S128x64, .f32⟩ : BufTy).Contents (Elt F)) (x3 : (⟨S64, .f32⟩ : BufTy).Contents (Elt F))
    (x4 : (⟨S64x64, .f32⟩ : BufTy).Contents (Elt F)) :
    val_main_v101 (F := F) x0 x1 x2 x3 x4 = Cert.Gcn.aggregate x1 (val_main_v60 (F := F) x0 x1 x2 x3 x4) := by
  unfold val_main_v101 Cert.Gcn.aggregate val_main_v98 val_main_v95
  rw [zero_eq, dstIdx_eq, srcIdx_eq, weightB_eq]

end Layer2

/-! ## The read-out and the log-softmax -/

theorem lidx_v105 (p : Fin 100000) (q : Fin 40) (k : Fin 64) : lidx_main_v105 (ix2 p q) k = ix2 p k :=
  funext fun a => Fin.ext (by match a with | ⟨0, _⟩ => rfl | ⟨1, _⟩ => rfl)
theorem ridx_v105 (p : Fin 100000) (q : Fin 40) (k : Fin 64) : ridx_main_v105 (ix2 p q) k = ix2 k q :=
  funext fun a => Fin.ext (by match a with | ⟨0, _⟩ => rfl | ⟨1, _⟩ => rfl)
theorem idx_v103 (p : Fin 100000) (k : Fin 64) : idx_main_v102 (idx_main_v103 (ix2 p k)) = ix1 k :=
  funext fun a => Fin.ext (by match a with | ⟨0, _⟩ => rfl)
theorem idx_v107 (p : Fin 100000) (q : Fin 40) : idx_main_v106 (idx_main_v107 (ix2 p q)) = ix1 q :=
  funext fun a => Fin.ext (by match a with | ⟨0, _⟩ => rfl)
theorem idx_c3v4 (p : Fin 100000) (q : Fin 40) : idx_main_call3_v3 (idx_main_call3_v4 (ix2 p q)) = ix1 p :=
  funext fun a => Fin.ext (by match a with | ⟨0, _⟩ => rfl)
theorem idx_c3v10 (p : Fin 100000) (q : Fin 40) : idx_main_call3_v8 (idx_main_call3_v10 (ix2 p q)) = ix1 p :=
  funext fun a => Fin.ext (by match a with | ⟨0, _⟩ => rfl)
theorem idx_c3v7 (p : Fin 100000) (k : Fin 40) : idx_main_call3_v7 (ix1 p) k = ix2 p k :=
  funext fun a => Fin.ext (by match a with | ⟨0, _⟩ => rfl | ⟨1, _⟩ => rfl)

/-- The logits at an entry: the biased second aggregate times the read-out weights, plus the read-out bias. -/
theorem ref_logits (x0 : (⟨S100000x128, .f32⟩ : BufTy).Contents (Elt Ideal)) (x1 : (⟨S2x1600000, .i32⟩ : BufTy).Contents (Elt Ideal))
    (x2 : (⟨S128x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal))
    (x6 : (⟨S64x40, .f32⟩ : BufTy).Contents (Elt Ideal)) (x7 : (⟨S40, .f32⟩ : BufTy).Contents (Elt Ideal))
    (p : Fin 100000) (q : Fin 40) :
    val_main_v108 (F := Ideal) x0 x1 x2 x3 x4 x5 x6 x7 (ix2 p q)
      = (∑ k : Fin 64, (val_main_v101 (F := Ideal) x0 x1 x2 x3 x4 (ix2 p k) + x5 (ix1 k)) * x6 (ix2 k q)) + x7 (ix1 q) := by
  rw [val_main_v108_apply, val_main_v105_apply, val_main_v107_apply, val_main_v106_apply, idx_v107, Ideal.addf_def]
  refine congrArg (· + x7 (ix1 q)) (Finset.sum_congr rfl fun k _ => ?_)
  rw [lidx_v105, ridx_v105, val_main_v104_apply, val_main_v103_apply, val_main_v102_apply, idx_v103, Ideal.addf_def]

/-- The row maximum the log-softmax subtracts is the supremum of the row of logits. -/
theorem ref_rowmax (x0 : (⟨S100000x128, .f32⟩ : BufTy).Contents (Elt Ideal)) (x1 : (⟨S2x1600000, .i32⟩ : BufTy).Contents (Elt Ideal))
    (x2 : (⟨S128x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal))
    (x6 : (⟨S64x40, .f32⟩ : BufTy).Contents (Elt Ideal)) (x7 : (⟨S40, .f32⟩ : BufTy).Contents (Elt Ideal))
    (p : Fin 100000) :
    val_main_call3_v2 (F := Ideal) x0 x1 x2 x3 x4 x5 x6 x7 (ix1 p)
      = Finset.univ.sup fun q' : Fin 40 => val_main_v108 (F := Ideal) x0 x1 x2 x3 x4 x5 x6 x7 (ix2 p q') := by
  have h0 : val_main_call3_v0 (F := Ideal) x0 x1 x2 x3 x4 x5 x6 x7 (ix1 p)
      = max (val_main_call3_cst (F := Ideal) ix0)
          (Finset.univ.sup fun q' : Fin 40 => val_main_v108 (F := Ideal) x0 x1 x2 x3 x4 x5 x6 x7 (ix2 p q')) := by
    unfold val_main_call3_v0
    generalize val_main_v108 (F := Ideal) x0 x1 x2 x3 x4 x5 x6 x7 = y
    exact Cert.LibRowReduce.hostReduce_maximumf_row y (val_main_call3_cst (F := Ideal)) Gen.reducesTo_S100000x40_S100000_d1 Gen.h_S_ p
  rw [val_main_call3_v2_apply, val_main_call3_v1_apply, val_main_call3_cst_0_apply, h0, val_main_call3_cst_apply,
    Ideal.maximumf_def, Ideal.ofBits_def, Cert.LibRowReduce.ofBits_neg_inf_f32, max_bot_left, max_bot_left]

/-- The shifted logits at an entry. -/
theorem ref_shift (x0 : (⟨S100000x128, .f32⟩ : BufTy).Contents (Elt Ideal)) (x1 : (⟨S2x1600000, .i32⟩ : BufTy).Contents (Elt Ideal))
    (x2 : (⟨S128x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal))
    (x6 : (⟨S64x40, .f32⟩ : BufTy).Contents (Elt Ideal)) (x7 : (⟨S40, .f32⟩ : BufTy).Contents (Elt Ideal))
    (p : Fin 100000) (q : Fin 40) :
    val_main_call3_v5 (F := Ideal) x0 x1 x2 x3 x4 x5 x6 x7 (ix2 p q)
      = val_main_v108 (F := Ideal) x0 x1 x2 x3 x4 x5 x6 x7 (ix2 p q)
        - Finset.univ.sup fun q' : Fin 40 => val_main_v108 (F := Ideal) x0 x1 x2 x3 x4 x5 x6 x7 (ix2 p q') := by
  rw [val_main_call3_v5_apply, val_main_call3_v4_apply, val_main_call3_v3_apply, idx_c3v4, ref_rowmax, Ideal.subf_def]

/-- The log-softmax of the logits, in terms of the logits' row. -/
theorem ref_softmax (x0 : (⟨S100000x128, .f32⟩ : BufTy).Contents (Elt Ideal)) (x1 : (⟨S2x1600000, .i32⟩ : BufTy).Contents (Elt Ideal))
    (x2 : (⟨S128x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal))
    (x6 : (⟨S64x40, .f32⟩ : BufTy).Contents (Elt Ideal)) (x7 : (⟨S40, .f32⟩ : BufTy).Contents (Elt Ideal))
    (p : Fin 100000) (q : Fin 40) :
    val_main_v109 (F := Ideal) x0 x1 x2 x3 x4 x5 x6 x7 (ix2 p q)
      = Cert.GcnSpec.logSoftmaxRow (fun q' : Fin 40 => val_main_v108 (F := Ideal) x0 x1 x2 x3 x4 x5 x6 x7 (ix2 p q')) q := by
  have hs : ∑ k : Fin 40, val_main_call3_v6 (F := Ideal) x0 x1 x2 x3 x4 x5 x6 x7 (idx_main_call3_v7 (ix1 p) k)
      = ∑ q' : Fin 40, Ideal.exp (val_main_v108 (F := Ideal) x0 x1 x2 x3 x4 x5 x6 x7 (ix2 p q')
          - Finset.univ.sup fun q'' : Fin 40 => val_main_v108 (F := Ideal) x0 x1 x2 x3 x4 x5 x6 x7 (ix2 p q'')) :=
    Finset.sum_congr rfl fun k _ => by
      rw [idx_c3v7, val_main_call3_v6_apply, ref_shift, Ideal.hostUnary_exp_def]
  rw [val_main_v109_apply, val_main_call3_v10_apply, val_main_call3_v9_apply, val_main_call3_v8_apply, idx_c3v10,
    val_main_call3_v7_apply, val_main_call3_cst_1_apply, hs, ref_shift, Ideal.subf_def, Ideal.hostUnary_log_def,
    Ideal.ofBits_def, Ideal.ofBits_zero_f32, zero_add]
  rfl

/-- The reference's result at an entry is the log-softmax of the row of read-out logits. -/
theorem ref_final (x0 : (⟨S100000x128, .f32⟩ : BufTy).Contents (Elt Ideal)) (x1 : (⟨S2x1600000, .i32⟩ : BufTy).Contents (Elt Ideal))
    (x2 : (⟨S128x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal))
    (x6 : (⟨S64x40, .f32⟩ : BufTy).Contents (Elt Ideal)) (x7 : (⟨S40, .f32⟩ : BufTy).Contents (Elt Ideal))
    (p : Fin 100000) (q : Fin 40) :
    val_main_v109 (F := Ideal) x0 x1 x2 x3 x4 x5 x6 x7 (ix2 p q)
      = Cert.GcnSpec.logSoftmaxRow (fun q' : Fin 40 =>
          (∑ k : Fin 64, (val_main_v101 (F := Ideal) x0 x1 x2 x3 x4 (ix2 p k) + x5 (ix1 k)) * x6 (ix2 k q')) + x7 (ix1 q')) q := by
  rw [ref_softmax]
  exact congrArg (fun z => Cert.GcnSpec.logSoftmaxRow z q) (funext fun q' => ref_logits x0 x1 x2 x3 x4 x5 x6 x7 p q')

end Cert.ReferenceIdeal.RefStages

end
-- ==== Proof.HostK.lean ====
import proofs.«112777_j32212254720504_1_alg».proof.Proof.Gen.KernelIdeal.Frame
import proofs.«112777_j32212254720504_1_alg».proof.Proof.Chain

/-!
# What the host operations leave in the buffers the four regions read

Between its four regions the kernel program runs lines of host operations. From the edge array they compute
the source and target node lists (the edges followed by one self loop per node), the inverse square root of
each node's degree, and, once per layer, the aggregation of the node features along the edges: wrap negative
node numbers, gather the feature rows at the sources, scale each row by the product of its edge's two endpoint
weights, and add the scaled rows into the targets.

The reference program computes the same values by the same operations under its own buffer names. Each
statement below reads one buffer at a region's entry and identifies its contents with the reference's stage:
a function of the launch arguments alone, or, for an aggregation, one fixed function of the edge array applied
to the features the preceding region left. The aggregation is never opened: only the values going into it are
compared.

Every statement is generic in the float instance.
-/

noncomputable section

namespace Cert.KernelIdeal.HostValue

open Cert.KernelIdeal Cert.KernelIdeal.Gen Idealize.ShloMosaic Idealize.ShloMosaic.TcCoe Idealize.SL.Sem
open Idealize.ShloMosaic.StableHlo

/-! ## A line of operations cut in two -/

/-- Two lines run one after the other: the second line's fold over the first's. -/
theorem after_append {τ : Topo} {sig : RefSig} {Val : EltTy → Type} (l₁ l₂ : List (HloOp τ sig Val))
    (V : Valuation τ sig Val) :
    StableHlo.after (l₁ ++ l₂) V = StableHlo.after l₂ (StableHlo.after l₁ V) := by
  induction l₁ generalizing V with
  | nil => rfl
  | cons op l ih => rw [List.cons_append, after_cons, after_cons, ih]

/-- A line cut at position `k`: the fold of the rest over the fold of the first `k` operations. -/
theorem after_take_drop {τ : Topo} {sig : RefSig} {Val : EltTy → Type} (k : Nat) (ops : List (HloOp τ sig Val))
    (V : Valuation τ sig Val) :
    StableHlo.after ops V = StableHlo.after (ops.drop k) (StableHlo.after (ops.take k) V) := by
  rw [← after_append, List.take_append_drop]

variable {F : FTy → Type} [FloatOps F]
variable (m : (ℓ : Loc nD τ sig) → Buf (Elt F) ℓ) (ρ : Dev nD → PrngReg)

/-- The launch memory read at a TensorCore reference. -/
theorem W0_apply (c : Dev nD) (b : Ref sig .tc) : W0 m ρ c (Proc.devRef .tc b) = m ((c : Thread nD τ).loc b) := rfl

/-- A line of operations leaves a buffer none of them writes as it found it: the writes of each operation are
    read off the line's text and the references compared. -/
local macro "unwritten " ops:ident : tactic =>
  `(tactic| (
    refine StableHlo.after_of_forall_not_mem _ _ (List.forall_iff_forall_mem.mp ?_)
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes,
      StableHlo.binaryIndexed_writes, Finset.mem_singleton]
    repeat' apply And.intro
    all_goals exact StableHlo.devRef_ne_of_ne (by decide)))

/-! ## Region 0's entry: the node lists, the inverse root degree, the two operands -/

/-- The source list: the edge array's first row followed by the node numbers. -/
theorem W2_src (c : Dev nD) :
    W2 m ρ c (Proc.devRef .tc main_v5)
      = Cert.ReferenceIdeal.ReadP.val_main_v3 (F := F)
          (m ((c : Thread nD τ).loc main_arg1) : (⟨Cert.ReferenceIdeal.S2x1600000, .i32⟩ : BufTy).Contents (Elt F)) := by
  show StableHlo.after hostOps0_1 (StableHlo.after hostOps0 (W0 m ρ c)) (Proc.devRef .tc main_v5) = _
  after_results
  rw [W0_apply]
  generalize m ((c : Thread nD τ).loc main_arg1) = e
  rfl

/-- The target list: the edge array's second row followed by the node numbers. -/
theorem W2_dst (c : Dev nD) :
    W2 m ρ c (Proc.devRef .tc main_v6)
      = Cert.ReferenceIdeal.ReadP.val_main_v6 (F := F)
          (m ((c : Thread nD τ).loc main_arg1) : (⟨Cert.ReferenceIdeal.S2x1600000, .i32⟩ : BufTy).Contents (Elt F)) := by
  show StableHlo.after hostOps0_1 (StableHlo.after hostOps0 (W0 m ρ c)) (Proc.devRef .tc main_v6) = _
  after_results
  rw [W0_apply]
  generalize m ((c : Thread nD τ).loc main_arg1) = e
  rfl

/-- The first seven host operations already leave the target list, whatever contents they start from. -/
theorem head_dst (V : Valuation τ sig (Elt F)) :
    StableHlo.after (List.take 7 hostOps0) V (Proc.devRef .tc main_v6)
      = Cert.ReferenceIdeal.ReadP.val_main_v6 (F := F)
          (V (Proc.devRef .tc main_arg1) : (⟨Cert.ReferenceIdeal.S2x1600000, .i32⟩ : BufTy).Contents (Elt F)) := by
  simp only [hostOps0, List.take_succ_cons, List.take_zero]
  after_results
  generalize V (Proc.devRef .tc main_arg1) = e
  rfl

/-- The inverse square root of the degree, zero where the degree is zero. The degree count reads the target
    list three times, so the line is cut after the target list and the rest is read over that one value. -/
theorem W2_dinv (c : Dev nD) :
    W2 m ρ c (Proc.devRef .tc main_v19)
      = Cert.ReferenceIdeal.ReadP.val_main_v20 (F := F)
          (m ((c : Thread nD τ).loc main_arg1) : (⟨Cert.ReferenceIdeal.S2x1600000, .i32⟩ : BufTy).Contents (Elt F)) := by
  show StableHlo.after hostOps0_1 (StableHlo.after hostOps0 (W0 m ρ c)) (Proc.devRef .tc main_v19) = _
  rw [after_take_drop 7 hostOps0 (W0 m ρ c)]
  have hA := head_dst (W0 m ρ c)
  rw [W0_apply] at hA
  generalize StableHlo.after (List.take 7 hostOps0) (W0 m ρ c) = VA at hA ⊢
  simp only [hostOps0_1, hostOps0, List.drop_succ_cons, List.drop_zero]
  after_results_simp
  rw [hA]
  generalize m ((c : Thread nD τ).loc main_arg1) = e
  rfl

/-- No host operation before region 0 writes an argument: each is as launched. -/
theorem W2_arg0 (c : Dev nD) : W2 m ρ c (Proc.devRef .tc main_arg0) = m ((c : Thread nD τ).loc main_arg0) :=
  calc W2 m ρ c (Proc.devRef .tc main_arg0)
    _ = W1 m ρ c (Proc.devRef .tc main_arg0) := by unwritten hostOps0_1
    _ = W0 m ρ c (Proc.devRef .tc main_arg0) := by unwritten hostOps0
    _ = m ((c : Thread nD τ).loc main_arg0) := rfl

theorem W2_arg2 (c : Dev nD) : W2 m ρ c (Proc.devRef .tc main_arg2) = m ((c : Thread nD τ).loc main_arg2) :=
  calc W2 m ρ c (Proc.devRef .tc main_arg2)
    _ = W1 m ρ c (Proc.devRef .tc main_arg2) := by unwritten hostOps0_1
    _ = W0 m ρ c (Proc.devRef .tc main_arg2) := by unwritten hostOps0
    _ = m ((c : Thread nD τ).loc main_arg2) := rfl

theorem W2_arg3 (c : Dev nD) : W2 m ρ c (Proc.devRef .tc main_arg3) = m ((c : Thread nD τ).loc main_arg3) :=
  calc W2 m ρ c (Proc.devRef .tc main_arg3)
    _ = W1 m ρ c (Proc.devRef .tc main_arg3) := by unwritten hostOps0_1
    _ = W0 m ρ c (Proc.devRef .tc main_arg3) := by unwritten hostOps0
    _ = m ((c : Thread nD τ).loc main_arg3) := rfl

theorem W2_arg4 (c : Dev nD) : W2 m ρ c (Proc.devRef .tc main_arg4) = m ((c : Thread nD τ).loc main_arg4) :=
  calc W2 m ρ c (Proc.devRef .tc main_arg4)
    _ = W1 m ρ c (Proc.devRef .tc main_arg4) := by unwritten hostOps0_1
    _ = W0 m ρ c (Proc.devRef .tc main_arg4) := by unwritten hostOps0
    _ = m ((c : Thread nD τ).loc main_arg4) := rfl

theorem W2_arg5 (c : Dev nD) : W2 m ρ c (Proc.devRef .tc main_arg5) = m ((c : Thread nD τ).loc main_arg5) :=
  calc W2 m ρ c (Proc.devRef .tc main_arg5)
    _ = W1 m ρ c (Proc.devRef .tc main_arg5) := by unwritten hostOps0_1
    _ = W0 m ρ c (Proc.devRef .tc main_arg5) := by unwritten hostOps0
    _ = m ((c : Thread nD τ).loc main_arg5) := rfl

theorem W2_arg6 (c : Dev nD) : W2 m ρ c (Proc.devRef .tc main_arg6) = m ((c : Thread nD τ).loc main_arg6) :=
  calc W2 m ρ c (Proc.devRef .tc main_arg6)
    _ = W1 m ρ c (Proc.devRef .tc main_arg6) := by unwritten hostOps0_1
    _ = W0 m ρ c (Proc.devRef .tc main_arg6) := by unwritten hostOps0
    _ = m ((c : Thread nD τ).loc main_arg6) := rfl

theorem W2_arg7 (c : Dev nD) : W2 m ρ c (Proc.devRef .tc main_arg7) = m ((c : Thread nD τ).loc main_arg7) :=
  calc W2 m ρ c (Proc.devRef .tc main_arg7)
    _ = W1 m ρ c (Proc.devRef .tc main_arg7) := by unwritten hostOps0_1
    _ = W0 m ρ c (Proc.devRef .tc main_arg7) := by unwritten hostOps0
    _ = m ((c : Thread nD τ).loc main_arg7) := rfl

/-! ## Region 1's entry: the first layer's aggregate and bias row

Region 0 rewrites only its own three arrays, so the node lists and the inverse root degree are still there at
its exit; the features are what region 0 left in its output array. -/

theorem W3_src (c : Dev nD) :
    W3 m ρ c (Proc.devRef .tc main_v5)
      = Cert.ReferenceIdeal.ReadP.val_main_v3 (F := F)
          (m ((c : Thread nD τ).loc main_arg1) : (⟨Cert.ReferenceIdeal.S2x1600000, .i32⟩ : BufTy).Contents (Elt F)) :=
  (W3_of_ne m ρ c main_v5 (by decide)).trans (W2_src m ρ c)

theorem W3_dst (c : Dev nD) :
    W3 m ρ c (Proc.devRef .tc main_v6)
      = Cert.ReferenceIdeal.ReadP.val_main_v6 (F := F)
          (m ((c : Thread nD τ).loc main_arg1) : (⟨Cert.ReferenceIdeal.S2x1600000, .i32⟩ : BufTy).Contents (Elt F)) :=
  (W3_of_ne m ρ c main_v6 (by decide)).trans (W2_dst m ρ c)

theorem W3_dinv (c : Dev nD) :
    W3 m ρ c (Proc.devRef .tc main_v19)
      = Cert.ReferenceIdeal.ReadP.val_main_v20 (F := F)
          (m ((c : Thread nD τ).loc main_arg1) : (⟨Cert.ReferenceIdeal.S2x1600000, .i32⟩ : BufTy).Contents (Elt F)) :=
  (W3_of_ne m ρ c main_v19 (by decide)).trans (W2_dinv m ρ c)

theorem W3_arg3 (c : Dev nD) : W3 m ρ c (Proc.devRef .tc main_arg3) = m ((c : Thread nD τ).loc main_arg3) :=
  (W3_of_ne m ρ c main_arg3 (by decide)).trans (W2_arg3 m ρ c)

/-- The first layer's aggregate: the aggregation of the features region 0 left, along the launched edges. -/
theorem W4_agg (c : Dev nD) :
    W4 m ρ c (Proc.devRef .tc main_v48)
      = Cert.Gcn.aggregate (m ((c : Thread nD τ).loc main_arg1)) (W3 m ρ c (Proc.devRef .tc main_v20)) := by
  show StableHlo.after hostOps1 (W3 m ρ c) (Proc.devRef .tc main_v48) = _
  simp only [hostOps1]
  after_results_simp
  rw [W3_src, W3_dst, W3_dinv]
  generalize W3 m ρ c (Proc.devRef .tc main_v20) = h
  generalize m ((c : Thread nD τ).loc main_arg1) = e
  unfold Cert.Gcn.aggregate
  rfl

/-- The first layer's bias as a row. -/
theorem W4_b1 (c : Dev nD) :
    W4 m ρ c (Proc.devRef .tc main_v49)
      = shapeCast S1x64 (m ((c : Thread nD τ).loc main_arg3)) shapeCasts_S64_S1x64 := by
  show StableHlo.after hostOps1 (W3 m ρ c) (Proc.devRef .tc main_v49) = _
  simp only [hostOps1]
  after_results_simp
  rw [W3_arg3]
  rfl

/-! ## Region 2's entry: the second layer's weights

Neither the host operations between regions 0 and 1 nor region 1 write an argument. -/

theorem W3_arg4 (c : Dev nD) : W3 m ρ c (Proc.devRef .tc main_arg4) = m ((c : Thread nD τ).loc main_arg4) :=
  (W3_of_ne m ρ c main_arg4 (by decide)).trans (W2_arg4 m ρ c)

theorem W4_arg4 (c : Dev nD) : W4 m ρ c (Proc.devRef .tc main_arg4) = m ((c : Thread nD τ).loc main_arg4) :=
  calc W4 m ρ c (Proc.devRef .tc main_arg4)
    _ = W3 m ρ c (Proc.devRef .tc main_arg4) := by unwritten hostOps1
    _ = _ := W3_arg4 m ρ c

theorem W3_arg5 (c : Dev nD) : W3 m ρ c (Proc.devRef .tc main_arg5) = m ((c : Thread nD τ).loc main_arg5) :=
  (W3_of_ne m ρ c main_arg5 (by decide)).trans (W2_arg5 m ρ c)

theorem W4_arg5 (c : Dev nD) : W4 m ρ c (Proc.devRef .tc main_arg5) = m ((c : Thread nD τ).loc main_arg5) :=
  calc W4 m ρ c (Proc.devRef .tc main_arg5)
    _ = W3 m ρ c (Proc.devRef .tc main_arg5) := by unwritten hostOps1
    _ = _ := W3_arg5 m ρ c

theorem W3_arg6 (c : Dev nD) : W3 m ρ c (Proc.devRef .tc main_arg6) = m ((c : Thread nD τ).loc main_arg6) :=
  (W3_of_ne m ρ c main_arg6 (by decide)).trans (W2_arg6 m ρ c)

theorem W4_arg6 (c : Dev nD) : W4 m ρ c (Proc.devRef .tc main_arg6) = m ((c : Thread nD τ).loc main_arg6) :=
  calc W4 m ρ c (Proc.devRef .tc main_arg6)
    _ = W3 m ρ c (Proc.devRef .tc main_arg6) := by unwritten hostOps1
    _ = _ := W3_arg6 m ρ c

theorem W3_arg7 (c : Dev nD) : W3 m ρ c (Proc.devRef .tc main_arg7) = m ((c : Thread nD τ).loc main_arg7) :=
  (W3_of_ne m ρ c main_arg7 (by decide)).trans (W2_arg7 m ρ c)

theorem W4_arg7 (c : Dev nD) : W4 m ρ c (Proc.devRef .tc main_arg7) = m ((c : Thread nD τ).loc main_arg7) :=
  calc W4 m ρ c (Proc.devRef .tc main_arg7)
    _ = W3 m ρ c (Proc.devRef .tc main_arg7) := by unwritten hostOps1
    _ = _ := W3_arg7 m ρ c

/-- The second layer's weight matrix is as launched when region 2 is entered. -/
theorem W5_w2 (c : Dev nD) : W5 m ρ c (Proc.devRef .tc main_arg4) = m ((c : Thread nD τ).loc main_arg4) :=
  (W5_of_ne m ρ c main_arg4 (by decide)).trans (W4_arg4 m ρ c)

theorem W6_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := W5_of_ne m ρ c main_arg5 (by decide)
    _ = _ := W4_arg5 m ρ c

theorem W6_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := W5_of_ne m ρ c main_arg6 (by decide)
    _ = _ := W4_arg6 m ρ c

theorem W6_arg7 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := W5_of_ne m ρ c main_arg7 (by decide)
    _ = _ := W4_arg7 m ρ c

/-! ## Region 3's entry: the second layer's aggregate, the two bias rows, the output weights

The node lists and the inverse root degree, computed before region 0, are written by nothing since: not by
the three regions, whose arrays are other buffers, and not by the host operations of the first layer. The
second layer's host operations compute the edge weights afresh from the inverse root degree: the same function
of it and of the two node lists as the first layer's. -/

theorem W6_src (c : Dev nD) :
    W6 m ρ c (Proc.devRef .tc main_v5)
      = Cert.ReferenceIdeal.ReadP.val_main_v3 (F := F)
          (m ((c : Thread nD τ).loc main_arg1) : (⟨Cert.ReferenceIdeal.S2x1600000, .i32⟩ : BufTy).Contents (Elt F)) :=
  calc W6 m ρ c (Proc.devRef .tc main_v5)
    _ = W5 m ρ c (Proc.devRef .tc main_v5) := W6_of_ne m ρ c main_v5 (by decide)
    _ = W4 m ρ c (Proc.devRef .tc main_v5) := W5_of_ne m ρ c main_v5 (by decide)
    _ = W3 m ρ c (Proc.devRef .tc main_v5) := by unwritten hostOps1
    _ = _ := W3_src m ρ c

theorem W6_dst (c : Dev nD) :
    W6 m ρ c (Proc.devRef .tc main_v6)
      = Cert.ReferenceIdeal.ReadP.val_main_v6 (F := F)
          (m ((c : Thread nD τ).loc main_arg1) : (⟨Cert.ReferenceIdeal.S2x1600000, .i32⟩ : BufTy).Contents (Elt F)) :=
  calc W6 m ρ c (Proc.devRef .tc main_v6)
    _ = W5 m ρ c (Proc.devRef .tc main_v6) := W6_of_ne m ρ c main_v6 (by decide)
    _ = W4 m ρ c (Proc.devRef .tc main_v6) := W5_of_ne m ρ c main_v6 (by decide)
    _ = W3 m ρ c (Proc.devRef .tc main_v6) := by unwritten hostOps1
    _ = _ := W3_dst m ρ c

theorem W6_dinv (c : Dev nD) :
    W6 m ρ c (Proc.devRef .tc main_v19)
      = Cert.ReferenceIdeal.ReadP.val_main_v20 (F := F)
          (m ((c : Thread nD τ).loc main_arg1) : (⟨Cert.ReferenceIdeal.S2x1600000, .i32⟩ : BufTy).Contents (Elt F)) :=
  calc W6 m ρ c (Proc.devRef .tc main_v19)
    _ = W5 m ρ c (Proc.devRef .tc main_v19) := W6_of_ne m ρ c main_v19 (by decide)
    _ = W4 m ρ c (Proc.devRef .tc main_v19) := W5_of_ne m ρ c main_v19 (by decide)
    _ = W3 m ρ c (Proc.devRef .tc main_v19) := by unwritten hostOps1
    _ = _ := W3_dinv m ρ c

/-- The second layer's aggregate: the aggregation of the features region 2 left, along the launched edges. -/
theorem W7_agg (c : Dev nD) :
    W7 m ρ c (Proc.devRef .tc main_v79)
      = Cert.Gcn.aggregate (m ((c : Thread nD τ).loc main_arg1)) (W6 m ρ c (Proc.devRef .tc main_v51)) := by
  show StableHlo.after hostOps3 (W6 m ρ c) (Proc.devRef .tc main_v79) = _
  simp only [hostOps3]
  after_results_simp
  rw [W6_src, W6_dst, W6_dinv]
  generalize W6 m ρ c (Proc.devRef .tc main_v51) = h
  generalize m ((c : Thread nD τ).loc main_arg1) = e
  unfold Cert.Gcn.aggregate
  rfl

/-- The second layer's bias as a row. -/
theorem W7_b2 (c : Dev nD) :
    W7 m ρ c (Proc.devRef .tc main_v80)
      = shapeCast S1x64 (m ((c : Thread nD τ).loc main_arg5)) shapeCasts_S64_S1x64 := by
  show StableHlo.after hostOps3 (W6 m ρ c) (Proc.devRef .tc main_v80) = _
  simp only [hostOps3]
  after_results_simp
  rw [W6_arg5]
  rfl

/-- The output layer's bias as a row. -/
theorem W7_bl (c : Dev nD) :
    W7 m ρ c (Proc.devRef .tc main_v81)
      = shapeCast S1x40 (m ((c : Thread nD τ).loc main_arg7)) shapeCasts_S40_S1x40 := by
  show StableHlo.after hostOps3 (W6 m ρ c) (Proc.devRef .tc main_v81) = _
  simp only [hostOps3]
  after_results_simp
  rw [W6_arg7]
  rfl

/-- The output layer's weight matrix is as launched when region 3 is entered. -/
theorem W7_wl (c : Dev nD) : W7 m ρ c (Proc.devRef .tc main_arg6) = m ((c : Thread nD τ).loc main_arg6) :=
  calc W7 m ρ c (Proc.devRef .tc main_arg6)
    _ = W6 m ρ c (Proc.devRef .tc main_arg6) := by unwritten hostOps3
    _ = _ := W6_arg6 m ρ c

end Cert.KernelIdeal.HostValue

end
-- ==== Proof.LibMatmul.lean ====
/-
  A plain matrix product and a two-axis transpose, read at an index.

  For `l : [M, K]` and `r : [K, N]` the contraction with dimension numbers "contract axis 1 of the left operand with
  axis 0 of the right one, no batch axis" has at `(i, j)`, at the ideal values, the sum over `k` of `l(i, k) · r(k, j)`:
  for the matrix unit's product into the zero accumulator and for the host's general dot alike. The contraction's own
  index set has one axis of extent `K`; the sum is re-indexed through the bijection with `Fin K`, and the two operand
  indices at `(i, j)` and `k` are `(i, k)` and `(k, j)` coordinate by coordinate.
  The transpose with permutation `[1, 0]` of `x : [A, B]` has at `(b, a)` the element `x(a, b)`.
-/
import Idealize.ShloMosaic.PureOps.Ideal.Laws
import Idealize.ShloMosaic.Lib.ValueIdx
import Idealize.ShloMosaic.Lib.Pipeline.Value
open scoped BigOperators
noncomputable section
namespace Cert.MatOps
open Idealize.ShloMosaic Idealize.ShloMosaic.ValueIdx

section Plain
variable {M K N : Nat}

/-- The contraction index set of the plain product is `Fin K`. -/
abbrev plainContr (M K N : Nat) : (DotDims.plain M K N).contr.Idx ≃ Fin K :=
  contrEquiv1 (DotDims.plain M K N) K rfl rfl

/-- The left operand's index at output `(i, j)` and contraction coordinate `k` is `(i, k)`. -/
theorem plain_lhsIdx (i : Fin M) (j : Fin N) (k : Fin K) :
    (DotDims.plain M K N).lhsIdx (ix2 i j) ((plainContr M K N).symm k) = ix2 i k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 i j) _).trans hk

/-- The right operand's index at output `(i, j)` and contraction coordinate `k` is `(k, j)`. -/
theorem plain_rhsIdx (i : Fin M) (j : Fin N) (k : Fin K) :
    (DotDims.plain M K N).rhsIdx (ix2 i j) ((plainContr M K N).symm k) = ix2 k j := by
  have hk := contrEquiv1_symm_val (DotDims.plain M K N) K rfl rfl k
  funext a
  refine Fin.ext ?_
  match a with
  | ⟨0, _⟩ => exact ((DotDims.plain M K N).rhsIdx_val_of_single rfl (ix2 i j) _).trans hk
  | ⟨1, _⟩ => rfl

/-- The contraction's sum over its own index set is the sum over `k : Fin K` of the products at `(i, k)`, `(k, j)`. -/
theorem plain_sum (l : (⟨2, ![M, K]⟩ : Shape).Idx → EReal) (r : (⟨2, ![K, N]⟩ : Shape).Idx → EReal) (i : Fin M) (j : Fin N) :
    ∑ q : (DotDims.plain M K N).contr.Idx, l ((DotDims.plain M K N).lhsIdx (ix2 i j) q) * r ((DotDims.plain M K N).rhsIdx (ix2 i j) q)
      = ∑ k : Fin K, l (ix2 i k) * r (ix2 k j) := by
  rw [← Equiv.sum_comp (plainContr M K N).symm]
  refine Finset.sum_congr rfl fun k _ => ?_
  rw [plain_lhsIdx, plain_rhsIdx]

end Plain

theorem matmul_plain_zero_apply {M K N : Nat} {φ₁ φ₂ : FTy} (prec : Option ContractPrecision) (l : FVec Ideal ⟨2, ![M, K]⟩ φ₁) (r : FVec Ideal ⟨2, ![K, N]⟩ φ₂) (i : Fin M) (j : Fin N) :
    matmul (F := Ideal) (DotDims.plain M K N) prec l r (constant ⟨2, ![M, N]⟩ .f32 0x00000000#32) (ix2 i j) = ∑ k : Fin K, l (ix2 i k) * r (ix2 k j) := by
  simp only [matmul]
  rw [Ideal.matmul_constant_zero_apply]
  exact plain_sum l r i j

theorem dotGeneral_plain_apply {M K N : Nat} {φ₁ φ₂ : FTy} (prec : Option ContractPrecision) (l : FVec Ideal ⟨2, ![M, K]⟩ φ₁) (r : FVec Ideal ⟨2, ![K, N]⟩ φ₂) (i : Fin M) (j : Fin N) :
    Host.dotGeneral (F := Ideal) (DotDims.plain M K N) prec l r (ix2 i j) = ∑ k : Fin K, l (ix2 i k) * r (ix2 k j) := by
  simp only [Host.dotGeneral]
  rw [Ideal.dotGeneral_apply]
  exact plain_sum l r i j

theorem transpose10_apply {α : Type} {A B : Nat} (x : (⟨2, ![A, B]⟩ : Shape).Idx → α) (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) (fun c => match c with
    | ⟨0, _⟩ => rfl
    | ⟨1, _⟩ => rfl)
end Cert.MatOps
-- ==== Proof.Region0.lean ====
/-
  The first matrix product, read at an index of its whole output array.

  The region multiplies a [100000, 128] array by a [128, 64] array. It walks twenty grid points; point `t` holds rows
  `5000 t … 5000 t + 4999` of the left operand and the whole right operand, forms their product on the matrix unit
  into a zero accumulator (the narrowing of both operands to the sixteen-bit format is the identity on the extended
  reals), and writes the [5000, 64] result back to the same rows of the output. So every point writes its row block
  of ONE function of the two arrays — entry `(p, q)` is the sum over `k` of `left(p, k) · right(k, q)` —, the twenty
  row blocks cover the output, and the output array after the region is that function.
-/
import proofs.«112777_j32212254720504_1_alg».proof.Proof.Gen.KernelIdeal.Frame
import proofs.«112777_j32212254720504_1_alg».proof.Proof.LibMatmul
import Idealize.ShloMosaic.Lib.Pipeline.Value
import Idealize.ShloMosaic.Lib.ValueIdx

set_option maxRecDepth 16384

noncomputable section

namespace Cert.KernelIdeal.RegionValue

open Cert.KernelIdeal Cert.KernelIdeal.Gen Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- The body's loads and its store start at offset zero on both axes. -/
theorem zero_offsets0 : (![0, 0] : Fin 2 → Nat) = fun _ => 0 := funext fun a => by fin_cases a <;> rfl

/-- The product's dimension numbers are the plain ones: contract axis 1 of the left operand with axis 0 of the right. -/
theorem dot0_plain : dot_S5000x128_S128x64_S5000x64_1_0_0_1_n_n = DotDims.plain 5000 128 64 := rfl

/-- The body's result at `(r, q)`: the sum over `k` of `x0(r, k) · x1(k, q)`. -/
theorem pay0_apply (x0 : Vec Ideal S5000x128 .f32) (x1 : Vec Ideal S128x64 .f32) (r : Fin 5000) (q : Fin 64) :
    k0_pay1 x0 x1 (ix2 r q) = ∑ k : Fin 128, (x0 : S5000x128.Idx → EReal) (ix2 r k) * (x1 : S128x64.Idx → EReal) (ix2 k q) := by
  unfold k0_pay1
  rw [dot0_plain]
  exact Cert.MatOps.matmul_plain_zero_apply none _ _ r q

/-- The index maps over the grid: at point `t` the left operand's and the output's block is row block `t`, the right
    operand's is the whole array; there are twenty points. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 20 :=
  (by decide +kernel : ∀ t : Fin grid0.N, _)

/-- The product as one function of the two whole arrays. -/
def prod0 (a0 : S100000x128.Idx → EReal) (a1 : S128x64.Idx → EReal) : S100000x64.Idx → EReal :=
  fun i => ∑ k : Fin 128, a0 (ix2 (i 0 : Fin 100000) k) * a1 (ix2 k (i 1 : Fin 64))

/-- The product at `(p, q)`: the sum over `k` of `a0(p, k) · a1(k, q)`. -/
theorem prod0_apply (a0 : S100000x128.Idx → EReal) (a1 : S128x64.Idx → EReal) (p : Fin 100000) (q : Fin 64) :
    prod0 a0 a1 (ix2 p q) = ∑ k : Fin 128, a0 (ix2 p k) * a1 (ix2 k q) := rfl

set_option maxHeartbeats 400000 in
/-- What point `t` writes back is row block `t` of the product of the arrays as the region finds them: row `r` of the
    left block is row `5000 t + r` of the left array, and the right block is the right array. -/
theorem flushed0_eq (c : Dev nD) (t : Fin cfg0.N) :
    (dat0 V c).flushed 2 t = ((cfg0.win 2).blk t).view.read (Elt Ideal) (prod0 (V c main_arg0) (V c main_arg2)) := by
  show (cfg0.win 2).cut (grid0.coords t) ((dat0 V c).after 2 t) = _
  rw [after0_2]
  unfold out0_2
  rw [View.canon_unit_zero zero_offsets0]
  simp only [View.ld_unit_zero (S := S5000x128) zero_offsets0, View.ld_unit_zero (S := S128x64) zero_offsets0]
  obtain ⟨e00, e01, e10, e11, e20, e21, ht⟩ := idx_facts0 t
  funext j
  obtain ⟨r, q, rfl⟩ : ∃ (r : Fin 5000) (q : Fin 64), j = ix2 r q := ⟨j 0, j 1, eq_ix2 j⟩
  show k0_pay1 (iblk0 V c 0 t) (iblk0 V c 1 t) (ix2 r q) = prod0 (V c main_arg0) (V c main_arg2) (((cfg0.win 2).blk t).view.emb (ix2 r q))
  rw [pay0_apply (iblk0 V c 0 t) (iblk0 V c 1 t) r q]
  unfold prod0
  refine Finset.sum_congr rfl fun k _ => ?_
  have h0 : iblk0 V c 0 t (ix2 r k) = V c main_arg0 (ix2 (((cfg0.win 2).blk t).view.emb (ix2 r q) 0 : Fin 100000) k) := by
    show V c main_arg0 (((cfg0.win 0).blk t).view.emb (ix2 r k)) = V c main_arg0 _
    refine congrArg _ (funext fun a => Fin.ext ?_)
    match a with
    | ⟨0, _⟩ => show win0_0.index t (0 : Fin 2) * 5000 + 1 * r.val = win0_2.index t (0 : Fin 2) * 5000 + 1 * r.val; omega
    | ⟨1, _⟩ => show win0_0.index t (1 : Fin 2) * 128 + 1 * k.val = k.val; omega
  have h1 : iblk0 V c 1 t (ix2 k q) = V c main_arg2 (ix2 k (((cfg0.win 2).blk t).view.emb (ix2 r q) 1 : Fin 64)) := by
    show V c main_arg2 (((cfg0.win 1).blk t).view.emb (ix2 k q)) = V c main_arg2 _
    refine congrArg _ (funext fun a => Fin.ext ?_)
    match a with
    | ⟨0, _⟩ => show win0_1.index t (0 : Fin 2) * 128 + 1 * k.val = k.val; omega
    | ⟨1, _⟩ => show win0_1.index t (1 : Fin 2) * 64 + 1 * q.val = win0_2.index t (1 : Fin 2) * 64 + 1 * q.val; omega
  rw [h0, h1]

/-- An index of the output array is in point `t`'s block iff each coordinate is in the block's range on its axis. -/
theorem mem_blk0 (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v20).slice (win0_2.rect t)).set ↔ _
  rw [View.set_slice_whole, Rect.mem_set_unit]
  exact Iff.rfl

set_option maxHeartbeats 400000 in
/-- Row `p` of the output lies in the block of point `p / 5000`, and every point writes back. -/
theorem cover0 (i : S100000x64.Idx) : ∃ t : Fin cfg0.N, (cfg0.win 2).flush t = true ∧ i ∈ ((cfg0.win 2).blk t).view.set := by
  have hi0 : (i 0).val < 100000 := idx2_lt0 i
  have hi1 : (i 1).val < 64 := idx2_lt1 i
  have hN : grid0.N = 20 := N_0
  have hlt : (i 0).val / 5000 < cfg0.N := by show (i 0).val / 5000 < grid0.N; rw [hN]; omega
  refine ⟨⟨(i 0).val / 5000, hlt⟩, flush0_2 _, ?_⟩
  rw [mem_blk0]
  obtain ⟨e00, e01, e10, e11, e20, e21, ht⟩ := idx_facts0 ⟨(i 0).val / 5000, hlt⟩
  have e20' : win0_2.index ⟨(i 0).val / 5000, hlt⟩ (0 : Fin 2) = (i 0).val / 5000 := e20
  intro a
  match a with
  | ⟨0, _⟩ => show win0_2.index ⟨(i 0).val / 5000, hlt⟩ (0 : Fin 2) * 5000 ≤ (i 0).val ∧ (i 0).val < win0_2.index ⟨(i 0).val / 5000, hlt⟩ (0 : Fin 2) * 5000 + 5000; omega
  | ⟨1, _⟩ => show win0_2.index ⟨(i 0).val / 5000, hlt⟩ (1 : Fin 2) * 64 ≤ (i 1).val ∧ (i 1).val < win0_2.index ⟨(i 0).val / 5000, hlt⟩ (1 : Fin 2) * 64 + 64; omega

set_option maxHeartbeats 400000 in
/-- The output array after the region is the product of the two arrays as the region finds them. -/
theorem arr0_eq (c : Dev nD) : (dat0 (F := Ideal) V c).arrAt 2 cfg0.N = prod0 (V c main_arg0) (V c main_arg2) :=
  (dat0 V c).arrAt_eq_of_cover 2 (prod0 (V c main_arg0) (V c main_arg2)) (fun t _ => flushed0_eq V c t) cover0

set_option maxHeartbeats 400000 in
/-- The output array after the region, at `(p, q)`: the sum over `k` of `left(p, k) · right(k, q)`. -/
theorem arr0_apply (c : Dev nD) (p : Fin 100000) (q : Fin 64) :
    (dat0 (F := Ideal) V c).arrAt 2 cfg0.N (ix2 p q)
      = ∑ k : Fin 128, @HMul.hMul EReal EReal EReal instHMul ((V c main_arg0 : S100000x128.Idx → EReal) (ix2 p k))
          ((V c main_arg2 : S128x64.Idx → EReal) (ix2 k q)) := by
  rw [arr0_eq]
  rfl

end Cert.KernelIdeal.RegionValue

end
-- ==== Proof.Region1.lean ====
/-
  The bias and activation, read at an index of the whole output array.

  The region adds a [1, 64] row to every row of a [100000, 64] array and takes the maximum with zero. It walks twenty
  grid points; point `t` holds rows `5000 t … 5000 t + 4999` of the big operand and the whole row, broadcasts the row
  over the block's rows, adds, takes the maximum with the zero word's value (the reshapes of both blocks to their own
  shapes are the identity), and writes the [5000, 64] result back to the same rows of the output. So every point
  writes its row block of ONE function of the two arrays — entry `(p, q)` is `max (x(p, q) + b(0, q)) 0` —, the twenty
  row blocks cover the output, and the output array after the region is that function. The zero stays the word it is
  printed as.
-/
import proofs.«112777_j32212254720504_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.RegionValue

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The body's loads and its store start at offset zero on both axes. -/
theorem zero_offsets1 : (![0, 0] : Fin 2 → Nat) = fun _ => 0 := funext fun a => by fin_cases a <;> rfl

set_option maxHeartbeats 400000 in
/-- The body's result at `(r, q)`: the maximum of `x0(r, q) + x1(0, q)` and the zero word's value. -/
theorem pay1_apply (x0 : Vec Ideal S5000x64 .f32) (x1 : Vec Ideal S1x64 .f32) (r : Fin 5000) (q : Fin 64) :
    k1_pay1 x0 x1 (ix2 r q)
      = max ((x0 : S5000x64.Idx → EReal) (ix2 r q) + (x1 : S1x64.Idx → EReal) (ix2 (0 : Fin 1) q)) (Ideal.ofBits .f32 0x00000000#32) := by
  unfold k1_pay1
  rw [shapeCast_self, shapeCast_self]
  refine (maximumf_apply _ _ _).trans ?_
  rw [addf_apply, broadcast_apply, broadcastTo_1b_ab_apply]
  rfl

/-- The index maps over the grid: at point `t` the big operand's and the output's block is row block `t`, the row's
    is the whole array; there are twenty points. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 ∧ t.val < 20 :=
  (by decide +kernel : ∀ t : Fin grid1.N, _)

/-- The bias and activation as one function of the two whole arrays. -/
def act1 (a0 : S100000x64.Idx → EReal) (a1 : S1x64.Idx → EReal) : S100000x64.Idx → EReal :=
  fun i => max (a0 i + a1 (ix2 (0 : Fin 1) (i 1 : Fin 64))) (Ideal.ofBits .f32 0x00000000#32)

/-- That function at `(p, q)`: the maximum of `a0(p, q) + a1(0, q)` and the zero word's value. -/
theorem act1_apply (a0 : S100000x64.Idx → EReal) (a1 : S1x64.Idx → EReal) (p : Fin 100000) (q : Fin 64) :
    act1 a0 a1 (ix2 p q) = max (a0 (ix2 p q) + a1 (ix2 (0 : Fin 1) q)) (Ideal.ofBits .f32 0x00000000#32) := rfl

set_option maxHeartbeats 400000 in
/-- What point `t` writes back is row block `t` of that function of the arrays as the region finds them: row `r` of
    the big block is row `5000 t + r` of the big array, and the row block is the row. -/
theorem flushed1_eq (c : Dev nD) (t : Fin cfg1.N) :
    (dat1 V c).flushed 2 t = ((cfg1.win 2).blk t).view.read (Elt Ideal) (act1 (V c main_v48) (V c main_v49)) := by
  show (cfg1.win 2).cut (grid1.coords t) ((dat1 V c).after 2 t) = _
  rw [after1_2]
  unfold out1_2
  rw [View.canon_unit_zero zero_offsets1]
  simp only [View.ld_unit_zero (S := S5000x64) zero_offsets1, View.ld_unit_zero (S := S1x64) zero_offsets1]
  obtain ⟨e00, e01, e10, e11, e20, e21, ht⟩ := idx_facts1 t
  funext j
  obtain ⟨r, q, rfl⟩ : ∃ (r : Fin 5000) (q : Fin 64), j = ix2 r q := ⟨j 0, j 1, eq_ix2 j⟩
  show k1_pay1 (iblk1 V c 0 t) (iblk1 V c 1 t) (ix2 r q) = act1 (V c main_v48) (V c main_v49) (((cfg1.win 2).blk t).view.emb (ix2 r q))
  rw [pay1_apply (iblk1 V c 0 t) (iblk1 V c 1 t) r q]
  unfold act1
  have h0 : iblk1 V c 0 t (ix2 r q) = V c main_v48 (((cfg1.win 2).blk t).view.emb (ix2 r q)) := by
    show V c main_v48 (((cfg1.win 0).blk t).view.emb (ix2 r q)) = V c main_v48 _
    refine congrArg _ (funext fun a => Fin.ext ?_)
    match a with
    | ⟨0, _⟩ => show win1_0.index t (0 : Fin 2) * 5000 + 1 * r.val = win1_2.index t (0 : Fin 2) * 5000 + 1 * r.val; omega
    | ⟨1, _⟩ => show win1_0.index t (1 : Fin 2) * 64 + 1 * q.val = win1_2.index t (1 : Fin 2) * 64 + 1 * q.val; omega
  have h1 : iblk1 V c 1 t (ix2 (0 : Fin 1) q) = V c main_v49 (ix2 (0 : Fin 1) (((cfg1.win 2).blk t).view.emb (ix2 r q) 1 : Fin 64)) := by
    show V c main_v49 (((cfg1.win 1).blk t).view.emb (ix2 (0 : Fin 1) q)) = V c main_v49 _
    refine congrArg _ (funext fun a => Fin.ext ?_)
    match a with
    | ⟨0, _⟩ => show win1_1.index t (0 : Fin 2) * 1 + 1 * (0 : Fin 1).val = (0 : Fin 1).val; rw [e10]; rfl
    | ⟨1, _⟩ => show win1_1.index t (1 : Fin 2) * 64 + 1 * q.val = win1_2.index t (1 : Fin 2) * 64 + 1 * q.val; omega
  rw [h0, h1]

/-- An index of the output array is in point `t`'s block iff each coordinate is in the block's range on its axis. -/
theorem mem_blk1 (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v50).slice (win1_2.rect t)).set ↔ _
  rw [View.set_slice_whole, Rect.mem_set_unit]
  exact Iff.rfl

set_option maxHeartbeats 400000 in
/-- Row `p` of the output lies in the block of point `p / 5000`, and every point writes back. -/
theorem cover1 (i : S100000x64.Idx) : ∃ t : Fin cfg1.N, (cfg1.win 2).flush t = true ∧ i ∈ ((cfg1.win 2).blk t).view.set := by
  have hi0 : (i 0).val < 100000 := idx2_lt0 i
  have hi1 : (i 1).val < 64 := idx2_lt1 i
  have hN : grid1.N = 20 := N_1
  have hlt : (i 0).val / 5000 < cfg1.N := by show (i 0).val / 5000 < grid1.N; rw [hN]; omega
  refine ⟨⟨(i 0).val / 5000, hlt⟩, flush1_2 _, ?_⟩
  rw [mem_blk1]
  obtain ⟨e00, e01, e10, e11, e20, e21, ht⟩ := idx_facts1 ⟨(i 0).val / 5000, hlt⟩
  have e20' : win1_2.index ⟨(i 0).val / 5000, hlt⟩ (0 : Fin 2) = (i 0).val / 5000 := e20
  intro a
  match a with
  | ⟨0, _⟩ => show win1_2.index ⟨(i 0).val / 5000, hlt⟩ (0 : Fin 2) * 5000 ≤ (i 0).val ∧ (i 0).val < win1_2.index ⟨(i 0).val / 5000, hlt⟩ (0 : Fin 2) * 5000 + 5000; omega
  | ⟨1, _⟩ => show win1_2.index ⟨(i 0).val / 5000, hlt⟩ (1 : Fin 2) * 64 ≤ (i 1).val ∧ (i 1).val < win1_2.index ⟨(i 0).val / 5000, hlt⟩ (1 : Fin 2) * 64 + 64; omega

set_option maxHeartbeats 400000 in
/-- The output array after the region is that function of the two arrays as the region finds them. -/
theorem arr1_eq (c : Dev nD) : (dat1 (F := Ideal) V c).arrAt 2 cfg1.N = act1 (V c main_v48) (V c main_v49) :=
  (dat1 V c).arrAt_eq_of_cover 2 (act1 (V c main_v48) (V c main_v49)) (fun t _ => flushed1_eq V c t) cover1

set_option maxHeartbeats 400000 in
/-- The output array after the region, at `(p, q)`: the maximum of `x(p, q) + b(0, q)` and the zero word's value. -/
theorem arr1_apply (c : Dev nD) (p : Fin 100000) (q : Fin 64) :
    (dat1 (F := Ideal) V c).arrAt 2 cfg1.N (ix2 p q)
      = @max EReal _ (@HAdd.hAdd EReal EReal EReal instHAdd ((V c main_v48 : S100000x64.Idx → EReal) (ix2 p q))
          ((V c main_v49 : S1x64.Idx → EReal) (ix2 (0 : Fin 1) q))) (Ideal.ofBits .f32 0x00000000#32) := by
  rw [arr1_eq]
  rfl

end Cert.KernelIdeal.RegionValue

end
-- ==== Proof.Region2.lean ====
/-
  The second matrix product, read at an index of its whole output array.

  The region multiplies a [100000, 64] array by a [64, 64] array. It walks twenty grid points; point `t` holds rows
  `5000 t … 5000 t + 4999` of the left operand and the whole right operand, forms their product on the matrix unit
  into a zero accumulator (the reshape of the left block to its own shape and the narrowing of both operands to the
  sixteen-bit format are the identity on the extended reals), and writes the [5000, 64] result back to the same rows of
  the output. So every point writes its row block of ONE function of the two arrays — entry `(p, q)` is the sum over
  `k` of `left(p, k) · right(k, q)` —, the twenty row blocks cover the output, and the output array after the region is
  that function.
-/
import proofs.«112777_j32212254720504_1_alg».proof.Proof.Gen.KernelIdeal.Frame
import proofs.«112777_j32212254720504_1_alg».proof.Proof.LibMatmul
import Idealize.ShloMosaic.Lib.Pipeline.Value
import Idealize.ShloMosaic.Lib.ValueIdx

set_option maxRecDepth 16384

noncomputable section

namespace Cert.KernelIdeal.RegionValue

open Cert.KernelIdeal Cert.KernelIdeal.Gen Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- The body's loads and its store start at offset zero on both axes. -/
theorem zero_offsets2 : (![0, 0] : Fin 2 → Nat) = fun _ => 0 := funext fun a => by fin_cases a <;> rfl

/-- The product's dimension numbers are the plain ones: contract axis 1 of the left operand with axis 0 of the right. -/
theorem dot2_plain : dot_S5000x64_S64x64_S5000x64_1_0_0_1_n_n = DotDims.plain 5000 64 64 := rfl

/-- The body's result at `(r, q)`: the sum over `k` of `x0(r, k) · x1(k, q)`. -/
theorem pay2_apply (x0 : Vec Ideal S5000x64 .f32) (x1 : Vec Ideal S64x64 .f32) (r : Fin 5000) (q : Fin 64) :
    k2_pay1 x0 x1 (ix2 r q) = ∑ k : Fin 64, (x0 : S5000x64.Idx → EReal) (ix2 r k) * (x1 : S64x64.Idx → EReal) (ix2 k q) := by
  unfold k2_pay1
  rw [dot2_plain, shapeCast_self]
  exact Cert.MatOps.matmul_plain_zero_apply none _ _ r q

/-- The index maps over the grid: at point `t` the left operand's and the output's block is row block `t`, the right
    operand's is the whole array; there are twenty points. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 ∧ t.val < 20 :=
  (by decide +kernel : ∀ t : Fin grid2.N, _)

/-- The product as one function of the two whole arrays. -/
def prod2 (a0 : S100000x64.Idx → EReal) (a1 : S64x64.Idx → EReal) : S100000x64.Idx → EReal :=
  fun i => ∑ k : Fin 64, a0 (ix2 (i 0 : Fin 100000) k) * a1 (ix2 k (i 1 : Fin 64))

/-- The product at `(p, q)`: the sum over `k` of `a0(p, k) · a1(k, q)`. -/
theorem prod2_apply (a0 : S100000x64.Idx → EReal) (a1 : S64x64.Idx → EReal) (p : Fin 100000) (q : Fin 64) :
    prod2 a0 a1 (ix2 p q) = ∑ k : Fin 64, a0 (ix2 p k) * a1 (ix2 k q) := rfl

set_option maxHeartbeats 400000 in
/-- What point `t` writes back is row block `t` of the product of the arrays as the region finds them: row `r` of the
    left block is row `5000 t + r` of the left array, and the right block is the right array. -/
theorem flushed2_eq (c : Dev nD) (t : Fin cfg2.N) :
    (dat2 V c).flushed 2 t = ((cfg2.win 2).blk t).view.read (Elt Ideal) (prod2 (V c main_v50) (V c main_arg4)) := by
  show (cfg2.win 2).cut (grid2.coords t) ((dat2 V c).after 2 t) = _
  rw [after2_2]
  unfold out2_2
  rw [View.canon_unit_zero zero_offsets2]
  simp only [View.ld_unit_zero (S := S5000x64) zero_offsets2, View.ld_unit_zero (S := S64x64) zero_offsets2]
  obtain ⟨e00, e01, e10, e11, e20, e21, ht⟩ := idx_facts2 t
  funext j
  obtain ⟨r, q, rfl⟩ : ∃ (r : Fin 5000) (q : Fin 64), j = ix2 r q := ⟨j 0, j 1, eq_ix2 j⟩
  show k2_pay1 (iblk2 V c 0 t) (iblk2 V c 1 t) (ix2 r q) = prod2 (V c main_v50) (V c main_arg4) (((cfg2.win 2).blk t).view.emb (ix2 r q))
  rw [pay2_apply (iblk2 V c 0 t) (iblk2 V c 1 t) r q]
  unfold prod2
  refine Finset.sum_congr rfl fun k _ => ?_
  have h0 : iblk2 V c 0 t (ix2 r k) = V c main_v50 (ix2 (((cfg2.win 2).blk t).view.emb (ix2 r q) 0 : Fin 100000) k) := by
    show V c main_v50 (((cfg2.win 0).blk t).view.emb (ix2 r k)) = V c main_v50 _
    refine congrArg _ (funext fun a => Fin.ext ?_)
    match a with
    | ⟨0, _⟩ => show win2_0.index t (0 : Fin 2) * 5000 + 1 * r.val = win2_2.index t (0 : Fin 2) * 5000 + 1 * r.val; omega
    | ⟨1, _⟩ => show win2_0.index t (1 : Fin 2) * 64 + 1 * k.val = k.val; omega
  have h1 : iblk2 V c 1 t (ix2 k q) = V c main_arg4 (ix2 k (((cfg2.win 2).blk t).view.emb (ix2 r q) 1 : Fin 64)) := by
    show V c main_arg4 (((cfg2.win 1).blk t).view.emb (ix2 k q)) = V c main_arg4 _
    refine congrArg _ (funext fun a => Fin.ext ?_)
    match a with
    | ⟨0, _⟩ => show win2_1.index t (0 : Fin 2) * 64 + 1 * k.val = k.val; omega
    | ⟨1, _⟩ => show win2_1.index t (1 : Fin 2) * 64 + 1 * q.val = win2_2.index t (1 : Fin 2) * 64 + 1 * q.val; omega
  rw [h0, h1]

/-- An index of the output array is in point `t`'s block iff each coordinate is in the block's range on its axis. -/
theorem mem_blk2 (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v51).slice (win2_2.rect t)).set ↔ _
  rw [View.set_slice_whole, Rect.mem_set_unit]
  exact Iff.rfl

set_option maxHeartbeats 400000 in
/-- Row `p` of the output lies in the block of point `p / 5000`, and every point writes back. -/
theorem cover2 (i : S100000x64.Idx) : ∃ t : Fin cfg2.N, (cfg2.win 2).flush t = true ∧ i ∈ ((cfg2.win 2).blk t).view.set := by
  have hi0 : (i 0).val < 100000 := idx2_lt0 i
  have hi1 : (i 1).val < 64 := idx2_lt1 i
  have hN : grid2.N = 20 := N_2
  have hlt : (i 0).val / 5000 < cfg2.N := by show (i 0).val / 5000 < grid2.N; rw [hN]; omega
  refine ⟨⟨(i 0).val / 5000, hlt⟩, flush2_2 _, ?_⟩
  rw [mem_blk2]
  obtain ⟨e00, e01, e10, e11, e20, e21, ht⟩ := idx_facts2 ⟨(i 0).val / 5000, hlt⟩
  have e20' : win2_2.index ⟨(i 0).val / 5000, hlt⟩ (0 : Fin 2) = (i 0).val / 5000 := e20
  intro a
  match a with
  | ⟨0, _⟩ => show win2_2.index ⟨(i 0).val / 5000, hlt⟩ (0 : Fin 2) * 5000 ≤ (i 0).val ∧ (i 0).val < win2_2.index ⟨(i 0).val / 5000, hlt⟩ (0 : Fin 2) * 5000 + 5000; omega
  | ⟨1, _⟩ => show win2_2.index ⟨(i 0).val / 5000, hlt⟩ (1 : Fin 2) * 64 ≤ (i 1).val ∧ (i 1).val < win2_2.index ⟨(i 0).val / 5000, hlt⟩ (1 : Fin 2) * 64 + 64; omega

set_option maxHeartbeats 400000 in
/-- The output array after the region is the product of the two arrays as the region finds them. -/
theorem arr2_eq (c : Dev nD) : (dat2 (F := Ideal) V c).arrAt 2 cfg2.N = prod2 (V c main_v50) (V c main_arg4) :=
  (dat2 V c).arrAt_eq_of_cover 2 (prod2 (V c main_v50) (V c main_arg4)) (fun t _ => flushed2_eq V c t) cover2

set_option maxHeartbeats 400000 in
/-- The output array after the region, at `(p, q)`: the sum over `k` of `left(p, k) · right(k, q)`. -/
theorem arr2_apply (c : Dev nD) (p : Fin 100000) (q : Fin 64) :
    (dat2 (F := Ideal) V c).arrAt 2 cfg2.N (ix2 p q)
      = ∑ k : Fin 64, @HMul.hMul EReal EReal EReal instHMul ((V c main_v50 : S100000x64.Idx → EReal) (ix2 p k))
          ((V c main_arg4 : S64x64.Idx → EReal) (ix2 k q)) := by
  rw [arr2_eq]
  rfl

end Cert.KernelIdeal.RegionValue

end
-- ==== Proof.LibKeepdims.lean ====
/-
  Two layout operations of a "keep the reduced axis" column, read at an index.

  A vector of `a` numbers cast to an `[a, 1]` column keeps entry `i` at `(i, 0)`: both have row-major position `i`.
  An `[a, 1]` column broadcast to `[a, b]` copies entry `(p, 0)` along row `p`.
-/
import Idealize.ShloMosaic.Lib.Pipeline.Value
import Idealize.ShloMosaic.Lib.ValueIdx

namespace Idealize.ShloMosaic.Keepdims

open Idealize.ShloMosaic Idealize.ShloMosaic.ValueIdx

variable {α : Type}

/-- An `[a]` vector cast to an `[a, 1]` column reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

end Idealize.ShloMosaic.Keepdims
-- ==== Proof.Region3.lean ====
/-
  Region 3, the read-out and log-softmax kernel: the value of its output array after its pipeline, read at an index.

  The grid has 20 points.  Point `t` reads rows `5000 t … 5000 t + 4999` of the node features and the whole of the
  two bias rows and of the weight matrix, and writes the same rows of the output.  The body adds the first bias row to
  every feature row, multiplies by the weights into a zero accumulator, adds the second bias row, and turns every row of
  the resulting logits into log-probabilities in the max-shifted form: the row maximum and the row sum of the
  exponentials are each kept as a column and spread back over the row.  Every step acts row by row, so the body's result
  at row `r` of a block is one function of that row of the features and of the small arrays; the blocks tile the
  output, hence the output array ends as that function of row `p` at every row `p`.
-/
import proofs.«112777_j32212254720504_1_alg».proof.Proof.Gen.KernelIdeal.Frame
import proofs.«112777_j32212254720504_1_alg».proof.Proof.Spec
import proofs.«112777_j32212254720504_1_alg».proof.Proof.LibMatmul
import proofs.«112777_j32212254720504_1_alg».proof.Proof.LibKeepdims
import proofs.«112777_j32212254720504_1_alg».proof.Proof.LibRowReduce
import Idealize.ShloMosaic.Lib.Pipeline.Value
import Idealize.ShloMosaic.Lib.ValueIdx
import Idealize.ShloMosaic.Lib.ValueLayout

set_option maxRecDepth 16384

noncomputable section

namespace Cert.KernelIdeal.RegionValue

open Cert.KernelIdeal Cert.KernelIdeal.Gen Idealize.ShloMosaic Idealize.ShloMosaic.TcCoe Idealize.ShloMosaic.ValueIdx Idealize.SL.Sem
open Idealize.ShloMosaic.Pipeline (Dat)
open scoped BigOperators

/-- The logits of row `p`: the biased row times the weights, plus the output bias. -/
def logits3 {A : ℕ} (a0 : (⟨2, ![A, 64]⟩ : Shape).Idx → EReal) (a1 : S1x64.Idx → EReal) (a2 : S64x40.Idx → EReal)
    (a3 : S1x40.Idx → EReal) (p : Fin A) : Fin 40 → EReal :=
  fun q' => (∑ k : Fin 64, (a0 (ix2 p k) + a1 (ix2 (0 : Fin 1) k)) * a2 (ix2 k q')) + a3 (ix2 (0 : Fin 1) q')

/-- The whole output array as one function of the four arrays: row `p` is the log-softmax of its logits. -/
def final3 (a0 : S100000x64.Idx → EReal) (a1 : S1x64.Idx → EReal) (a2 : S64x40.Idx → EReal)
    (a3 : S1x40.Idx → EReal) : S100000x40.Idx → EReal :=
  fun i => Cert.GcnSpec.logSoftmaxRow (logits3 a0 a1 a2 a3 (i 0 : Fin 100000)) (i 1 : Fin 40)

theorem final3_apply_logits (a0 : S100000x64.Idx → EReal) (a1 : S1x64.Idx → EReal) (a2 : S64x40.Idx → EReal)
    (a3 : S1x40.Idx → EReal) (p : Fin 100000) (q : Fin 40) :
    final3 a0 a1 a2 a3 (ix2 p q) = Cert.GcnSpec.logSoftmaxRow (logits3 a0 a1 a2 a3 p) q := rfl

/-- The whole-array function read at row `p` and class `q`: the log-softmax of the row's logits. -/
theorem final3_apply (a0 : S100000x64.Idx → EReal) (a1 : S1x64.Idx → EReal) (a2 : S64x40.Idx → EReal)
    (a3 : S1x40.Idx → EReal) (p : Fin 100000) (q : Fin 40) :
    final3 a0 a1 a2 a3 (ix2 p q) = Cert.GcnSpec.logSoftmaxRow (fun q' : Fin 40 =>
      (∑ k : Fin 64, (a0 (ix2 p k) + a1 (ix2 (0 : Fin 1) k)) * a2 (ix2 k q')) + a3 (ix2 (0 : Fin 1) q')) q := rfl

theorem logits3_apply {A : ℕ} (a0 : (⟨2, ![A, 64]⟩ : Shape).Idx → EReal) (a1 : S1x64.Idx → EReal) (a2 : S64x40.Idx → EReal)
    (a3 : S1x40.Idx → EReal) (p : Fin A) (q' : Fin 40) :
    logits3 a0 a1 a2 a3 p q' = (∑ k : Fin 64, (a0 (ix2 p k) + a1 (ix2 (0 : Fin 1) k)) * a2 (ix2 k q')) + a3 (ix2 (0 : Fin 1) q') := rfl

namespace Region3

/-! ## The body's arithmetic, stage by stage -/

/-- The features with the first bias row added to every row. -/
def biasedV (x0 : Vec Ideal S5000x64 .f32) (x1 : Vec Ideal S1x64 .f32) : FVec Ideal S5000x64 .f32 :=
  addf (shapeCast S5000x64 x0 shapeCasts_S5000x64_S5000x64)
    (broadcastTo S5000x64 (shapeCast S1x64 x1 shapeCasts_S1x64_S1x64) broadcasts_S1x64_S5000x64)

/-- The logits: the product with the weights into the zero accumulator, plus the second bias row on every row. -/
def logitsV (e : FVec Ideal S5000x64 .f32) (x2 : Vec Ideal S64x40 .f32) (x3 : Vec Ideal S1x40 .f32) : FVec Ideal S5000x40 .f32 :=
  addf (matmul dot_S5000x64_S64x40_S5000x40_1_0_0_1_n_n none (truncf .bf16 e bitsLt_bf16_f32) (truncf .bf16 x2 bitsLt_bf16_f32)
      (constant S5000x40 .f32 0x00000000#32))
    (broadcastTo S5000x40 (shapeCast S1x40 x3 shapeCasts_S1x40_S1x40) broadcasts_S1x40_S5000x40)

/-- A matrix minus its row maxima, the maxima kept as a column and spread back over the rows. -/
def shiftV (z : FVec Ideal S5000x40 .f32) : FVec Ideal S5000x40 .f32 :=
  subf z (broadcastTo S5000x40 (shapeCast S5000x1
    (multiReduction .maximumf [1] S5000 z 0xFF800000#32 reduces_S5000x40_S5000 (.inl rfl) rfl) shapeCasts_S5000_S5000x1)
    broadcasts_S5000x1_S5000x40)

/-- The shifted matrix minus the logarithm of the row sums of its exponentials, those kept as a column likewise. -/
def lsmV (z : FVec Ideal S5000x40 .f32) : FVec Ideal S5000x40 .f32 :=
  subf (shiftV z) (broadcastTo S5000x40 (log (shapeCast S5000x1
    (multiReduction .add [1] S5000 (exp (shiftV z)) 0x00000000#32 reduces_S5000x40_S5000 (.inl rfl) rfl) shapeCasts_S5000_S5000x1))
    broadcasts_S5000x1_S5000x40)

/-- The payload is these four stages composed. -/
theorem pay_eq (x0 : Vec Ideal S5000x64 .f32) (x1 : Vec Ideal S1x64 .f32) (x2 : Vec Ideal S64x40 .f32)
    (x3 : Vec Ideal S1x40 .f32) : k3_pay1 x0 x1 x2 x3 = lsmV (logitsV (biasedV x0 x1) x2 x3) := rfl

theorem biasedV_apply (x0 : Vec Ideal S5000x64 .f32) (x1 : Vec Ideal S1x64 .f32) (r : Fin 5000) (k : Fin 64) :
    biasedV x0 x1 (ix2 r k) = x0 (ix2 r k) + x1 (ix2 (0 : Fin 1) k) := by
  unfold biasedV
  rw [addf_apply, shapeCast_self, shapeCast_self]
  exact congrArg (fun s => x0 (ix2 r k) + s) (broadcastTo_1b_ab_apply x1 broadcasts_S1x64_S5000x64 r k)

theorem logitsV_apply (e : FVec Ideal S5000x64 .f32) (x2 : Vec Ideal S64x40 .f32) (x3 : Vec Ideal S1x40 .f32)
    (r : Fin 5000) (q : Fin 40) :
    logitsV e x2 x3 (ix2 r q) = (∑ k : Fin 64, e (ix2 r k) * x2 (ix2 k q)) + x3 (ix2 (0 : Fin 1) q) := by
  unfold logitsV
  rw [addf_apply, shapeCast_self]
  refine congr (congrArg HAdd.hAdd ?_) (broadcastTo_1b_ab_apply x3 broadcasts_S1x40_S5000x40 r q)
  exact Cert.MatOps.matmul_plain_zero_apply none (truncf .bf16 e bitsLt_bf16_f32) (truncf .bf16 x2 bitsLt_bf16_f32) r q

/-- The row maximum, kept as a column and spread over the row, read at an index: the supremum of the row. -/
theorem rowMax_apply (z : FVec Ideal S5000x40 .f32) (r : Fin 5000) (q : Fin 40) :
    (broadcastTo S5000x40 (shapeCast S5000x1
      (multiReduction (F := Ideal) .maximumf [1] S5000 z 0xFF800000#32 reduces_S5000x40_S5000 (.inl rfl) rfl) shapeCasts_S5000_S5000x1)
      broadcasts_S5000x1_S5000x40 : FVec Ideal S5000x40 .f32) (ix2 r q) = Finset.univ.sup fun b : Fin 40 => z (ix2 r b) := by
  refine (Keepdims.broadcastTo_a1_ab_apply _ broadcasts_S5000x1_S5000x40 r q (0 : Fin 1)).trans ?_
  refine (Keepdims.shapeCast_a_a1_apply _ shapeCasts_S5000_S5000x1 r (0 : Fin 1)).trans ?_
  exact Cert.LibRowReduce.multiReduction_maximumf_row z reduces_S5000x40_S5000 (.inl rfl) rfl r

/-- The logarithm of the row sum, kept as a column and spread over the row, read at an index. -/
theorem logRowSum_apply (w : FVec Ideal S5000x40 .f32) (r : Fin 5000) (q : Fin 40) :
    (broadcastTo S5000x40 (log (shapeCast S5000x1
      (multiReduction (F := Ideal) .add [1] S5000 w 0x00000000#32 reduces_S5000x40_S5000 (.inl rfl) rfl) shapeCasts_S5000_S5000x1))
      broadcasts_S5000x1_S5000x40 : FVec Ideal S5000x40 .f32) (ix2 r q) = Ideal.log (∑ b : Fin 40, w (ix2 r b)) := by
  refine (Keepdims.broadcastTo_a1_ab_apply _ broadcasts_S5000x1_S5000x40 r q (0 : Fin 1)).trans ?_
  show Ideal.log (shapeCast S5000x1
      (multiReduction (F := Ideal) .add [1] S5000 w 0x00000000#32 reduces_S5000x40_S5000 (.inl rfl) rfl) shapeCasts_S5000_S5000x1 (ix2 r (0 : Fin 1))) = _
  refine congrArg Ideal.log ?_
  refine (Keepdims.shapeCast_a_a1_apply _ shapeCasts_S5000_S5000x1 r (0 : Fin 1)).trans ?_
  exact Cert.LibRowReduce.multiReduction_add_row w reduces_S5000x40_S5000 (.inl rfl) rfl r

theorem shiftV_apply (z : FVec Ideal S5000x40 .f32) (r : Fin 5000) (q : Fin 40) :
    shiftV z (ix2 r q) = z (ix2 r q) - Finset.univ.sup fun b : Fin 40 => z (ix2 r b) := by
  unfold shiftV
  rw [subf_apply]
  exact congrArg (fun s => z (ix2 r q) - s) (rowMax_apply z r q)

theorem lsmV_apply (z : FVec Ideal S5000x40 .f32) (r : Fin 5000) (q : Fin 40) :
    lsmV z (ix2 r q) = Cert.GcnSpec.logSoftmaxRow (fun q' : Fin 40 => z (ix2 r q')) q := by
  unfold lsmV
  rw [subf_apply]
  unfold Cert.GcnSpec.logSoftmaxRow
  refine congr (congrArg HSub.hSub (shiftV_apply z r q)) ?_
  refine (logRowSum_apply (exp (shiftV z)) r q).trans ?_
  refine congrArg Ideal.log (Finset.sum_congr rfl fun b _ => ?_)
  show Ideal.exp (shiftV z (ix2 r b)) = _
  rw [shiftV_apply]

/-- The payload at an index: the log-softmax of the row's logits. -/
theorem pay_apply (x0 : Vec Ideal S5000x64 .f32) (x1 : Vec Ideal S1x64 .f32) (x2 : Vec Ideal S64x40 .f32)
    (x3 : Vec Ideal S1x40 .f32) (r : Fin 5000) (q : Fin 40) :
    k3_pay1 x0 x1 x2 x3 (ix2 r q) = Cert.GcnSpec.logSoftmaxRow (logits3 x0 x1 x2 x3 r) q := by
  rw [pay_eq]
  refine (lsmV_apply _ r q).trans ?_
  refine congrArg (fun z => Cert.GcnSpec.logSoftmaxRow z q) (funext fun q' => ?_)
  refine (logitsV_apply _ x2 x3 r q').trans ?_
  unfold logits3
  refine congrArg (fun s => s + x3 (ix2 (0 : Fin 1) q')) (Finset.sum_congr rfl fun k _ => ?_)
  rw [biasedV_apply]

/-! ## From the blocks to the array -/

theorem hz : (![0, 0] : Fin 2 → Nat) = fun _ => 0 := funext fun a => by fin_cases a <;> rfl

/-- The printed index maps over the grid: the row-blocked windows sit at block `(t, 0)`, the whole ones at `(0, 0)`. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

variable (V : (c : Dev nD) → (b : Ref sig .tc) → Buf (Elt Ideal) ((c : Thread nD τ).loc b))

/-- The features' block at point `t` holds rows `5000 t … 5000 t + 4999`. -/
theorem iblk0_apply (c : Dev nD) (t : Fin cfg3.N) (r : Fin 5000) (k : Fin 64) (p : Fin 100000)
    (hp : p.val = t.val * 5000 + r.val) :
    (iblk3 (F := Ideal) V c 0 t : Vec Ideal S5000x64 .f32) (ix2 r k) = (V c main_v79 : S100000x64.Idx → EReal) (ix2 p k) := by
  obtain ⟨e0, e1, -⟩ := idx_facts t
  unfold iblk3
  rw [View.read_apply]
  show (V c main_v79 : S100000x64.Idx → EReal) _ = (V c main_v79 : S100000x64.Idx → EReal) _
  congr 1
  funext a
  apply Fin.ext
  match a with
  | ⟨0, _⟩ => show win3_0.index t (0 : Fin 2) * 5000 + 1 * r.val = p.val; rw [e0, hp]; omega
  | ⟨1, _⟩ => show win3_0.index t (1 : Fin 2) * 64 + 1 * k.val = k.val; rw [e1]; omega

/-- The first bias row's window is the whole array at every point. -/
theorem iblk1_eq (c : Dev nD) (t : Fin cfg3.N) :
    (iblk3 (F := Ideal) V c 1 t : Vec Ideal S1x64 .f32) = (V c main_v80 : S1x64.Idx → EReal) := by
  obtain ⟨-, -, e0, e1, -⟩ := idx_facts t
  unfold iblk3
  funext y
  rw [View.read_apply]
  show (V c main_v80 : S1x64.Idx → EReal) _ = (V c main_v80 : S1x64.Idx → EReal) y
  congr 1
  funext a
  apply Fin.ext
  match a with
  | ⟨0, _⟩ => show win3_1.index t (0 : Fin 2) * 1 + 1 * (y 0).val = (y 0).val; rw [e0]; omega
  | ⟨1, _⟩ => show win3_1.index t (1 : Fin 2) * 64 + 1 * (y 1).val = (y 1).val; rw [e1]; omega

/-- The weights' window is the whole array at every point. -/
theorem iblk2_eq (c : Dev nD) (t : Fin cfg3.N) :
    (iblk3 (F := Ideal) V c 2 t : Vec Ideal S64x40 .f32) = (V c main_arg6 : S64x40.Idx → EReal) := by
  obtain ⟨-, -, -, -, e0, e1, -⟩ := idx_facts t
  unfold iblk3
  funext y
  rw [View.read_apply]
  show (V c main_arg6 : S64x40.Idx → EReal) _ = (V c main_arg6 : S64x40.Idx → EReal) y
  congr 1
  funext a
  apply Fin.ext
  match a with
  | ⟨0, _⟩ => show win3_2.index t (0 : Fin 2) * 64 + 1 * (y 0).val = (y 0).val; rw [e0]; omega
  | ⟨1, _⟩ => show win3_2.index t (1 : Fin 2) * 40 + 1 * (y 1).val = (y 1).val; rw [e1]; omega

/-- The second bias row's window is the whole array at every point. -/
theorem iblk3_eq (c : Dev nD) (t : Fin cfg3.N) :
    (iblk3 (F := Ideal) V c 3 t : Vec Ideal S1x40 .f32) = (V c main_v81 : S1x40.Idx → EReal) := by
  obtain ⟨-, -, -, -, -, -, e0, e1, -⟩ := idx_facts t
  unfold iblk3
  funext y
  rw [View.read_apply]
  show (V c main_v81 : S1x40.Idx → EReal) _ = (V c main_v81 : S1x40.Idx → EReal) y
  congr 1
  funext a
  apply Fin.ext
  match a with
  | ⟨0, _⟩ => show win3_3.index t (0 : Fin 2) * 1 + 1 * (y 0).val = (y 0).val; rw [e0]; omega
  | ⟨1, _⟩ => show win3_3.index t (1 : Fin 2) * 40 + 1 * (y 1).val = (y 1).val; rw [e1]; omega

/-- The payload of the blocks at point `T` is the whole-array function at the block's place: row `5000 T + r`. -/
theorem pay_block (a0 : S100000x64.Idx → EReal) (a1 : S1x64.Idx → EReal) (a2 : S64x40.Idx → EReal) (a3 : S1x40.Idx → EReal)
    (x0 : Vec Ideal S5000x64 .f32) (x1 : Vec Ideal S1x64 .f32) (x2 : Vec Ideal S64x40 .f32) (x3 : Vec Ideal S1x40 .f32) (T : ℕ)
    (h0 : ∀ (r : Fin 5000) (k : Fin 64) (p : Fin 100000), p.val = T * 5000 + r.val → x0 (ix2 r k) = a0 (ix2 p k))
    (h1 : x1 = a1) (h2 : x2 = a2) (h3 : x3 = a3) (y : S5000x40.Idx) (i : S100000x40.Idx)
    (hi0 : (i 0).val = T * 5000 + (y 0).val) (hi1 : (i 1).val = (y 1).val) :
    k3_pay1 x0 x1 x2 x3 y = final3 a0 a1 a2 a3 i := by
  subst h1 h2 h3
  obtain ⟨r, q, rfl⟩ : ∃ (r : Fin 5000) (q : Fin 40), y = ix2 r q := ⟨y 0, y 1, eq_ix2 y⟩
  obtain ⟨p, q', rfl⟩ : ∃ (p : Fin 100000) (q' : Fin 40), i = ix2 p q' := ⟨i 0, i 1, eq_ix2 i⟩
  obtain rfl : q' = q := Fin.ext hi1
  rw [pay_apply, final3_apply_logits]
  refine congrArg (fun z => Cert.GcnSpec.logSoftmaxRow z q') (funext fun q'' => ?_)
  unfold logits3
  refine congrArg (fun s => s + x3 (ix2 (0 : Fin 1) q'')) (Finset.sum_congr rfl fun k _ => ?_)
  rw [h0 r k p hi0]

/-- What point `t` writes back is block `t` of the whole-array function of the arrays as the region finds them. -/
theorem flushed_eq (c : Dev nD) (t : Fin cfg3.N) :
    (dat3 (F := Ideal) V c).flushed 4 t = ((cfg3.win 4).blk t).view.read (Elt Ideal)
      (final3 (V c main_v79) (V c main_v80) (V c main_arg6) (V c main_v81)) := by
  show (cfg3.win 4).cut (grid3.coords t) ((dat3 V c).after 4 t) = _
  rw [after3_4]
  unfold out3_4
  rw [View.canon_unit_zero hz]
  simp only [View.ld_unit_zero (S := S5000x64) hz, View.ld_unit_zero (S := S1x64) hz, View.ld_unit_zero (S := S64x40) hz,
    View.ld_unit_zero (S := S1x40) hz]
  obtain ⟨-, -, -, -, -, -, -, -, e8, e9⟩ := idx_facts t
  funext j
  show k3_pay1 (iblk3 V c 0 t) (iblk3 V c 1 t) (iblk3 V c 2 t) (iblk3 V c 3 t) ((cfg3.win 4).xinj (grid3.coords t) j)
    = final3 (V c main_v79) (V c main_v80) (V c main_arg6) (V c main_v81) (((cfg3.win 4).blk t).view.emb j)
  refine pay_block (V c main_v79) (V c main_v80) (V c main_arg6) (V c main_v81)
    (iblk3 V c 0 t) (iblk3 V c 1 t) (iblk3 V c 2 t) (iblk3 V c 3 t) t.val
    (fun r k p hp => iblk0_apply V c t r k p hp) (iblk1_eq V c t) (iblk2_eq V c t) (iblk3_eq V c t)
    ((cfg3.win 4).xinj (grid3.coords t) j) (((cfg3.win 4).blk t).view.emb j) ?_ ?_
  · show win3_4.index t (0 : Fin 2) * 5000 + 1 * (j 0).val = t.val * 5000 + (j 0).val
    rw [e8]; omega
  · show win3_4.index t (1 : Fin 2) * 40 + 1 * (j 1).val = (j 1).val
    rw [e9]; omega

/-- An index of the output array is in point `t`'s block iff each coordinate is in the block's range on its axis. -/
theorem mem_blk (t : Fin cfg3.N) (i : S100000x40.Idx) :
    i ∈ ((cfg3.win 4).blk t).view.set ↔ ∀ a : Fin 2, win3_4.index t a * S5000x40.size a ≤ (i a).val
      ∧ (i a).val < win3_4.index t a * S5000x40.size a + S5000x40.size a := by
  show i ∈ ((View.whole main_v82).slice (win3_4.rect t)).set ↔ _
  rw [View.set_slice_whole, Rect.mem_set_unit]
  exact Iff.rfl

/-- Every row lies in the block of the point `row / 5000`, and every point writes back. -/
theorem cover (i : S100000x40.Idx) :
    ∃ t : Fin cfg3.N, (cfg3.win 4).flush t = true ∧ i ∈ ((cfg3.win 4).blk t).view.set := by
  have hi0 : (i 0).val < 100000 := (i 0).isLt
  have hi1 : (i 1).val < 40 := (i 1).isLt
  have hN : cfg3.N = 20 := N_3
  obtain ⟨t, ht⟩ : ∃ t : Fin cfg3.N, t.val = (i 0).val / 5000 := ⟨⟨(i 0).val / 5000, by rw [hN]; omega⟩, rfl⟩
  obtain ⟨-, -, -, -, -, -, -, -, e8, e9⟩ := idx_facts t
  refine ⟨t, flush3_4 t, ?_⟩
  rw [mem_blk]
  intro a
  match a with
  | ⟨0, _⟩ =>
    show win3_4.index t (0 : Fin 2) * 5000 ≤ (i 0).val ∧ (i 0).val < win3_4.index t (0 : Fin 2) * 5000 + 5000
    rw [e8, ht]; omega
  | ⟨1, _⟩ =>
    show win3_4.index t (1 : Fin 2) * 40 ≤ (i 1).val ∧ (i 1).val < win3_4.index t (1 : Fin 2) * 40 + 40
    rw [e9]; omega

end Region3

open Region3

variable (V : (c : Dev nD) → (b : Ref sig .tc) → Buf (Elt Ideal) ((c : Thread nD τ).loc b))

/-- The output array after the region is the whole-array function of the arrays as the region finds them. -/
theorem arr3_eq (c : Dev nD) :
    (dat3 (F := Ideal) V c).arrAt 4 cfg3.N = final3 (V c main_v79) (V c main_v80) (V c main_arg6) (V c main_v81) :=
  (dat3 (F := Ideal) V c).arrAt_eq_of_cover 4 (final3 (V c main_v79) (V c main_v80) (V c main_arg6) (V c main_v81))
    (fun t _ => flushed_eq V c t) cover

/-- The output array after the region, read at row `p` and class `q`, for arrays known by name as the region finds
    them: the log-softmax of the row's logits. -/
theorem arr3_apply_of (c : Dev nD) (p : Fin 100000) (q : Fin 40)
    (a0 : S100000x64.Idx → EReal) (a1 : S1x64.Idx → EReal) (a2 : S64x40.Idx → EReal) (a3 : S1x40.Idx → EReal)
    (h0 : V c main_v79 = a0) (h1 : V c main_v80 = a1) (h2 : V c main_arg6 = a2) (h3 : V c main_v81 = a3) :
    (dat3 (F := Ideal) V c).arrAt 4 cfg3.N (ix2 p q)
      = Cert.GcnSpec.logSoftmaxRow (fun q' : Fin 40 =>
          (∑ k : Fin 64, (a0 (ix2 p k) + a1 (ix2 (0 : Fin 1) k)) * a2 (ix2 k q')) + a3 (ix2 (0 : Fin 1) q')) q := by
  subst h0 h1 h2 h3
  rw [arr3_eq V c]
  exact final3_apply_logits _ _ _ _ p q

/-- The output array after the region, read at row `p` and class `q`: the log-softmax of the row's logits (the sums and
    products are the extended reals'). -/
theorem arr3_apply (c : Dev nD) (p : Fin 100000) (q : Fin 40) :
    (dat3 (F := Ideal) V c).arrAt 4 cfg3.N (ix2 p q)
      = Cert.GcnSpec.logSoftmaxRow (fun q' : Fin 40 =>
          @HAdd.hAdd EReal EReal EReal instHAdd
            (∑ k : Fin 64, @HMul.hMul EReal EReal EReal instHMul
              (@HAdd.hAdd EReal EReal EReal instHAdd ((V c main_v79 : S100000x64.Idx → EReal) (ix2 p k))
                ((V c main_v80 : S1x64.Idx → EReal) (ix2 (0 : Fin 1) k)))
              ((V c main_arg6 : S64x40.Idx → EReal) (ix2 k q')))
            ((V c main_v81 : S1x40.Idx → EReal) (ix2 (0 : Fin 1) q'))) q :=
  arr3_apply_of V c p q _ _ _ _ rfl rfl rfl rfl

end Cert.KernelIdeal.RegionValue

end
-- ==== Proof.Bridge.lean ====
/-
  The kernel program's result array is the reference's last stage function of the arguments.

  The kernel program alternates host operations and four kernel regions, and its result array is the last
  boundary's contents at the result buffer.  Walking the boundaries in program order, each value the next stage
  reads is identified with the reference's stage function of the same arguments:

    * region 0 writes the product x·W1 (a block of rows per grid point; each entry the sum over k of
      x(p,k)·W1(k,q), as the host's general dot);
    * the host aggregates it over the edges — the same function of the features as the reference's;
    * region 1 adds the bias row and takes the maximum with zero, entry by entry;
    * region 2 writes the product with W2; the host aggregates again;
    * region 3 adds the bias row, multiplies by Wl, adds bl, and takes the row-wise log-softmax in the
      max-shifted form, which is the form the reference's outlined log-softmax computes.

  Equal features give equal aggregates, so the aggregation is never opened; the exponentials and the logarithm
  are never opened either.  The only facts about the extended reals used anywhere are that a product of matrices
  is the same sum on both sides and that the maximum with minus infinity is the other argument.
-/
import proofs.«112777_j32212254720504_1_alg».proof.Proof.Gen.KernelIdeal.Frame
import proofs.«112777_j32212254720504_1_alg».proof.Proof.Chain
import proofs.«112777_j32212254720504_1_alg».proof.Proof.Spec
import proofs.«112777_j32212254720504_1_alg».proof.Proof.RefStages
import proofs.«112777_j32212254720504_1_alg».proof.Proof.HostK
import proofs.«112777_j32212254720504_1_alg».proof.Proof.Region0
import proofs.«112777_j32212254720504_1_alg».proof.Proof.Region1
import proofs.«112777_j32212254720504_1_alg».proof.Proof.Region2
import proofs.«112777_j32212254720504_1_alg».proof.Proof.Region3
import Idealize.ShloMosaic.Lib.ValueIdx
import Idealize.ShloMosaic.Lib.ValueLayout

set_option maxRecDepth 16384

noncomputable section

namespace Cert.Bridge

open Cert.KernelIdeal Cert.KernelIdeal.Gen Cert.KernelIdeal.RegionValue Cert.KernelIdeal.HostValue
open Cert.ReferenceIdeal.RefStages
open Idealize.ShloMosaic Idealize.ShloMosaic.ValueIdx Idealize.ShloMosaic.TcCoe Idealize.SL.Sem
open Cert.ReferenceIdeal.ReadP (val_main_v7 val_main_v48 val_main_v52 val_main_v60 val_main_v101 val_main_v109)

variable (m : (ℓ : Loc nD τ sig) → Buf (Elt Ideal) ℓ) (ρ : Dev nD → PrngReg)

/-! ## The arguments' launch contents, at the reference's value types -/

abbrev a0 (c : Dev nD) : (⟨Cert.ReferenceIdeal.S100000x128, .f32⟩ : BufTy).Contents (Elt Ideal) := m ((c : Thread nD τ).loc main_arg0)
abbrev a1 (c : Dev nD) : (⟨Cert.ReferenceIdeal.S2x1600000, .i32⟩ : BufTy).Contents (Elt Ideal) := m ((c : Thread nD τ).loc main_arg1)
abbrev a2 (c : Dev nD) : (⟨Cert.ReferenceIdeal.S128x64, .f32⟩ : BufTy).Contents (Elt Ideal) := m ((c : Thread nD τ).loc main_arg2)
abbrev a3 (c : Dev nD) : (⟨Cert.ReferenceIdeal.S64, .f32⟩ : BufTy).Contents (Elt Ideal) := m ((c : Thread nD τ).loc main_arg3)
abbrev a4 (c : Dev nD) : (⟨Cert.ReferenceIdeal.S64x64, .f32⟩ : BufTy).Contents (Elt Ideal) := m ((c : Thread nD τ).loc main_arg4)
abbrev a5 (c : Dev nD) : (⟨Cert.ReferenceIdeal.S64, .f32⟩ : BufTy).Contents (Elt Ideal) := m ((c : Thread nD τ).loc main_arg5)
abbrev a6 (c : Dev nD) : (⟨Cert.ReferenceIdeal.S64x40, .f32⟩ : BufTy).Contents (Elt Ideal) := m ((c : Thread nD τ).loc main_arg6)
abbrev a7 (c : Dev nD) : (⟨Cert.ReferenceIdeal.S40, .f32⟩ : BufTy).Contents (Elt Ideal) := m ((c : Thread nD τ).loc main_arg7)

/-! ## Region 0: the first product -/

/-- What region 0 leaves in its output array is the reference's first product. -/
theorem prod1_eq (c : Dev nD) :
    (W3 m ρ c (Proc.devRef .tc main_v20) : (⟨Cert.ReferenceIdeal.S100000x64, .f32⟩ : BufTy).Contents (Elt Ideal)) = val_main_v7 (F := Ideal) (a0 m c) (a2 m c) := by
  refine (W3_arr m ρ c 2).trans ?_
  rw [arr0_eq]
  have e0 : V2 m ρ c main_arg0 = a0 m c := W2_arg0 m ρ c
  have e2 : V2 m ρ c main_arg2 = a2 m c := W2_arg2 m ρ c
  rw [e0, e2]
  funext i
  obtain ⟨p, q, rfl⟩ : ∃ (p : Fin 100000) (q : Fin 64), i = ix2 p q := ⟨i 0, i 1, eq_ix2 i⟩
  rw [prod0_apply, ref_mm1]

/-! ## Region 1: the bias and the rectifier over the first aggregate -/

/-- What region 1 leaves in its output array is the reference's first layer output. -/
theorem layer1_eq (c : Dev nD) :
    (W5 m ρ c (Proc.devRef .tc main_v50) : (⟨Cert.ReferenceIdeal.S100000x64, .f32⟩ : BufTy).Contents (Elt Ideal))
      = val_main_v52 (F := Ideal) (a0 m c) (a1 m c) (a2 m c) (a3 m c) := by
  refine (W5_arr m ρ c 2).trans ?_
  rw [arr1_eq]
  have e48 : V4 m ρ c main_v48 = val_main_v48 (F := Ideal) (a0 m c) (a1 m c) (a2 m c) := by
    refine (W4_agg m ρ c).trans ?_
    rw [prod1_eq m ρ c]
    exact (Cert.Gcn.ref_layer1 _ _ _).symm
  have e49 : V4 m ρ c main_v49 = shapeCast S1x64 (a3 m c) shapeCasts_S64_S1x64 := W4_b1 m ρ c
  rw [e48, e49]
  funext i
  obtain ⟨p, q, rfl⟩ : ∃ (p : Fin 100000) (q : Fin 64), i = ix2 p q := ⟨i 0, i 1, eq_ix2 i⟩
  rw [act1_apply, ref_relu, shapeCast_a_1a_apply]

/-! ## Region 2: the second product -/

/-- What region 2 leaves in its output array is the reference's second product. -/
theorem prod2_eq (c : Dev nD) :
    (W6 m ρ c (Proc.devRef .tc main_v51) : (⟨Cert.ReferenceIdeal.S100000x64, .f32⟩ : BufTy).Contents (Elt Ideal))
      = val_main_v60 (F := Ideal) (a0 m c) (a1 m c) (a2 m c) (a3 m c) (a4 m c) := by
  refine (W6_arr m ρ c 2).trans ?_
  rw [arr2_eq]
  have e50 : V5 m ρ c main_v50 = val_main_v52 (F := Ideal) (a0 m c) (a1 m c) (a2 m c) (a3 m c) := layer1_eq m ρ c
  have e4 : V5 m ρ c main_arg4 = a4 m c := W5_w2 m ρ c
  rw [e50, e4]
  funext i
  obtain ⟨p, q, rfl⟩ : ∃ (p : Fin 100000) (q : Fin 64), i = ix2 p q := ⟨i 0, i 1, eq_ix2 i⟩
  rw [prod2_apply, ref_mm2]

/-! ## Region 3: the read-out and the log-softmax over the second aggregate -/

/-- THE KERNEL'S RESULT: the last boundary's contents at the result buffer are the reference's last stage function of
    the arguments. -/
theorem result_eq (c : Dev nD) :
    (W8 m ρ c (Proc.devRef .tc main_v82) : (⟨Cert.ReferenceIdeal.S100000x40, .f32⟩ : BufTy).Contents (Elt Ideal))
      = val_main_v109 (F := Ideal) (a0 m c) (a1 m c) (a2 m c) (a3 m c) (a4 m c) (a5 m c) (a6 m c) (a7 m c) := by
  refine (W8_arr m ρ c 4).trans ?_
  rw [arr3_eq]
  have e79 : V7 m ρ c main_v79 = val_main_v101 (F := Ideal) (a0 m c) (a1 m c) (a2 m c) (a3 m c) (a4 m c) := by
    refine (W7_agg m ρ c).trans ?_
    rw [prod2_eq m ρ c]
    exact (ref_layer2 _ _ _ _ _).symm
  have e80 : V7 m ρ c main_v80 = shapeCast S1x64 (a5 m c) shapeCasts_S64_S1x64 := W7_b2 m ρ c
  have e6 : V7 m ρ c main_arg6 = a6 m c := W7_wl m ρ c
  have e81 : V7 m ρ c main_v81 = shapeCast S1x40 (a7 m c) shapeCasts_S40_S1x40 := W7_bl m ρ c
  rw [e79, e80, e6, e81]
  funext i
  obtain ⟨p, q, rfl⟩ : ∃ (p : Fin 100000) (q : Fin 40), i = ix2 p q := ⟨i 0, i 1, eq_ix2 i⟩
  rw [final3_apply, ref_final]
  simp only [shapeCast_a_1a_apply]

end Cert.Bridge

end
-- ==== Proof.lean ====
/-
  Two layers of graph convolution, a linear read-out and a row-wise log-softmax: a tiled kernel program against
  its plain array reference, equal as extended reals.

  Both programs compute, for node features x, an edge list, weights W1, W2, Wl and biases b1, b2, bl,

      logsoftmax ( (A (max (A (x·W1) + b1, 0) · W2) + b2) · Wl + bl ),

  where A is the symmetric-normalised aggregation over the edges with a self loop at every node: rows gathered at the
  edges' sources, scaled by the product of the endpoints' inverse root degrees, summed into the edges' targets.  The
  kernel program computes the three matrix products, the bias-and-rectifier and the bias, read-out and log-softmax in
  four kernel regions, each over twenty blocks of five thousand rows, and the aggregations in host operations between
  them; the reference is one line of host operations.  On the extended reals a change of float format is the
  identity and a matrix product is the same finite sum however it is tiled, so the two results agree entry by entry:

    * each region's output array is read off the region's blocks as one function of the arrays it finds
      (Proof/Region0 … Region3), the host stretches between the regions as the reference's own stage functions of the
      arguments (Proof/HostK), and the aggregation is carried through as one function of the features (Proof/Chain);
    * the reference's line of operations is read stage by stage (Proof/RefFold, Proof/RefResult) and its stages at an index
      (Proof/RefStages);
    * Proof/Bridge walks the kernel program's boundaries and identifies each with the reference's stage.

  The only laws of the extended reals used are the re-association of finite sums and max (-inf, y) = y; both hold
  at the infinities too, so the hypothesis that the inputs are finite is not needed.  The fourth conjunct of the
  claim is the proposition True.
-/
import proofs.«112777_j32212254720504_1_alg».proof.Defs
import proofs.«112777_j32212254720504_1_alg».proof.Proof.Gen.Kernel
import proofs.«112777_j32212254720504_1_alg».proof.Proof.Gen.Kernel.Frame
import proofs.«112777_j32212254720504_1_alg».proof.Proof.Gen.KernelIdeal
import proofs.«112777_j32212254720504_1_alg».proof.Proof.Gen.KernelIdeal.Frame
import proofs.«112777_j32212254720504_1_alg».proof.Proof.Gen.ReferenceIdeal
import proofs.«112777_j32212254720504_1_alg».proof.Proof.Gen.Pre_finite_inputs
import proofs.«112777_j32212254720504_1_alg».proof.Proof.KRun
import proofs.«112777_j32212254720504_1_alg».proof.Proof.RefRun
import proofs.«112777_j32212254720504_1_alg».proof.Proof.RefResult
import proofs.«112777_j32212254720504_1_alg».proof.Proof.Bridge
import Idealize.ShloMosaic.Adequacy
import Idealize.ShloMosaic.Init

noncomputable section

namespace Cert.Proof

open Idealize.ShloMosaic Idealize.SL.Sem

/-- The kernel program as printed runs to the end with its arguments unchanged. -/
theorem frame_kernel [Cert.Kernel.Facts] [Cert.Pre_finite_inputs.Facts] : Cert.frame_Kernel :=
  fun m ρ _ => Cert.Kernel.Gen.frame m ρ

/-- So does its reading on the extended reals. -/
theorem frame_kernelIdeal [Cert.KernelIdeal.Facts] [Cert.Pre_finite_inputs.Facts] : Cert.frame_KernelIdeal :=
  fun m ρ _ => Cert.KernelIdeal.Gen.frame m ρ

/-- The reference runs to the end with its arguments unchanged: its run with the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.ValueP.run (F := Ideal) m ρ)

/-- The two programs, from memories agreeing on the arguments, end with the same result array: the kernel
    program's is the last boundary's contents, which is the reference's last stage function of the arguments, and the
    reference's run leaves that same function of its own (equal) arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Gen.W8 m ρ c (Proc.devRef .tc Cert.KernelIdeal.main_v82),
    Cert.KernelIdeal.KValue.run_named m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.RefFold.result_eq m' c]
  obtain ⟨e0, e1, e2, e3, e4, e5, e6, e7⟩ := hagree c
  rw [e0, e1, e2, e3, e4, e5, e6, e7]
  exact (Cert.Bridge.result_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
